-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S1024x256 : Shape := ⟨2, ![1024, 256]⟩
abbrev S768x256 : Shape := ⟨2, ![768, 256]⟩
abbrev S1x768 : Shape := ⟨2, ![1, 768]⟩
abbrev S256x256 : Shape := ⟨2, ![256, 256]⟩
abbrev S256 : Shape := ⟨1, ![256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S768x256 : S_.BroadcastsInDim S768x256 (![] : Fin 0 → Fin S768x256.rank)
  reducesTo_S768x256_S_d0_1 : S768x256.ReducesTo [0, 1] S_
  bcast_S_S1x768 : S_.BroadcastsInDim S1x768 (![] : Fin 0 → Fin S1x768.rank)
  reducesTo_S1x768_S_d0_1 : S1x768.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg6 : FVec F S768x256 .f32) (main_arg7 : FVec F S1x768 .f32) (main_arg8 : FVec F S256x256 .f32) (main_arg9 : FVec F S256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S768x256 .f32 := Host.absf main_arg6
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S1x768 .f32 := Host.absf main_arg7
  let main_cst_8 : FVec F S_ .f32 := constant S_ .f32 0x7F800000#32
  let main_v25 : FVec F S1x768 .f32 := broadcastInDim S1x768 ![] bcast_S_S1x768 main_cst_8
  let main_v26 : IVec S1x768 1 := cmpf .olt main_v24 main_v25
  let main_c_9 : IVec S_ 1 := constantI S_ 1 1#1
  let main_v27 : IVec S_ 1 := (fun x v => Host.reduce IntOp.andi x v reducesTo_S1x768_S_d0_1 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_v33

def fn {F : FTy → Type} [FloatOps F] (main_arg0 : FVec F S200000x256 .f32) (main_arg1 : FVec F S200000x256 .f32) (main_arg2 : FVec F S200000x256 .f32) (main_arg3 : IVec S200000 32) (main_arg4 : IVec S200000 32) (main_arg5 : FVec F S1024x256 .f32) (main_arg6 : FVec F S768x256 .f32) (main_arg7 : FVec F S1x768 .f32) (main_arg8 : FVec F S256x256 .f32) (main_arg9 : FVec F S256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S200000x256 .f32 := Host.absf main_arg2
  let main_cst_2 : FVec F S_ .f32 := constant S_ .f32 0x7F800000#32
  let main_v10 : FVec F S200000x256 .f32 := broadcastInDim S200000x256 ![] bcast_S_S200000x256 main_cst_2
  let main_v11 : IVec S200000x256 1 := cmpf .olt main_v9 main_v10
  let main_c_3 : IVec S_ 1 := constantI S_ 1 1#1
  let main_v12 : IVec S_ 1 := (fun x v => Host.reduce IntOp.andi x v reducesTo_S200000x256_S_d0_1 h_S_) main_v11 main_c_3
  let main_v13 : IVec S_ 1 := andi main_v8 main_v12
  let main_v14 : FVec F S1024x256 .f32 := Host.absf main_arg5
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg6 main_arg7 main_arg8 main_arg9 main_v13 main_v16
-- ==== Kernel.lean ====
abbrev S200000x256 : Shape := ⟨2, ![200000, 256]⟩
abbrev S200000 : Shape := ⟨1, ![200000]⟩
abbrev S1024x256 : Shape := ⟨2, ![1024, 256]⟩
abbrev S768x256 : Shape := ⟨2, ![768, 256]⟩
abbrev S1x768 : Shape := ⟨2, ![1, 768]⟩
abbrev S256x256 : Shape := ⟨2, ![256, 256]⟩
abbrev S256 : Shape := ⟨1, ![256]⟩
abbrev S_ : Shape := ⟨0, ![]⟩
abbrev S200000x1 : Shape := ⟨2, ![200000, 1]⟩
abbrev S1x256 : Shape := ⟨2, ![1, 256]⟩
abbrev S2000x256 : Shape := ⟨2, ![2000, 256]⟩
abbrev S256x768 : Shape := ⟨2, ![256, 768]⟩
abbrev S1000x256 : Shape := ⟨2, ![1000, 256]⟩
abbrev S1000x768 : Shape := ⟨2, ![1000, 768]⟩

abbrev nBuf : Space → Nat
  | .hbm => 44
  | .vmem => 21
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000x256, .f32⟩
  | .hbm, ⟨3, _⟩ => ⟨S200000, .i32⟩
  | .hbm, ⟨4, _⟩ => ⟨S200000, .i32⟩
  | .hbm, ⟨5, _⟩ => ⟨S1024x256, .f32⟩
  | .hbm, ⟨6, _⟩ => ⟨S768x256, .f32⟩
  | .hbm, ⟨7, _⟩ => ⟨S1x768, .f32⟩
  | .hbm, ⟨8, _⟩ => ⟨S256x256, .f32⟩
  | .hbm, ⟨9, _⟩ => ⟨S256, .f32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S200000x1, .i32⟩
  | .hbm, ⟨18, _⟩ => ⟨S200000x256, .f32⟩
  | .hbm, ⟨19, _⟩ => ⟨S_, .i32⟩
  | .hbm, ⟨20, _⟩ => ⟨S200000, .i32⟩
  | .hbm, ⟨21, _⟩ => ⟨S200000, .i1⟩
  | .hbm, ⟨22, _⟩ => ⟨S_, .i32⟩
  | .hbm, ⟨23, _⟩ => ⟨S200000, .i32⟩
  | .hbm, ⟨24, _⟩ => ⟨S200000, .i32⟩
  | .hbm, ⟨25, _⟩ => ⟨S200000, .i32⟩
  | .hbm, ⟨26, _⟩ => ⟨S200000x1, .i32⟩
  | .hbm, ⟨27, _⟩ => ⟨S200000x256, .f32⟩
  | .hbm, ⟨28, _⟩ => ⟨S256x256, .f32⟩
  | .hbm, ⟨29, _⟩ => ⟨S1x256, .f32⟩
  | .hbm, ⟨30, _⟩ => ⟨S200000x256, .f32⟩
  | .hbm, ⟨31, _⟩ => ⟨S_, .f32⟩
  | .hbm, ⟨32, _⟩ => ⟨S200000x256, .f32⟩
  | .hbm, ⟨33, _⟩ => ⟨S200000x1, .i32⟩
  | .hbm, ⟨34, _⟩ => ⟨S200000x256, .f32⟩
  | .hbm, ⟨35, _⟩ => ⟨S_, .f32⟩
  | .hbm, ⟨36, _⟩ => ⟨S200000x256, .f32⟩
  | .hbm, ⟨37, _⟩ => ⟨S200000x1, .i32⟩
  | .hbm, ⟨38, _⟩ => ⟨S200000x256, .f32⟩
  | .hbm, ⟨39, _⟩ => ⟨S768x256, .f32⟩
  | .hbm, ⟨40, _⟩ => ⟨S256x768, .f32⟩
  | .hbm, ⟨41, _⟩ => ⟨S256x768, .f32⟩
  | .hbm, ⟨42, _⟩ => ⟨S200000x256, .f32⟩
  | .hbm, ⟨43, _⟩ => ⟨S200000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S256x768, .f32⟩
  | .local _ .vmem, ⟨15, _⟩ => ⟨S256x768, .f32⟩
  | .local _ .vmem, ⟨16, _⟩ => ⟨S1x768, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  transposes_S256x256_S256x256_1_0 : S256x256.Transposes [1, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S2000x256 : S1x256.Broadcasts S2000x256
  bcast_S_S200000x256 : S_.BroadcastsInDim S200000x256 (![] : Fin 0 → Fin S200000x256.rank)
  slices_S1024x256_S768x256_0_0 : S1024x256.Slices ![0, 0] S768x256
  transposes_S768x256_S256x768_1_0 : S768x256.Transposes [1, 0] S256x768
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  gather_S200000x256_S200000x1_S200000x256_1_0_n_n_0_1_1256_wf : GatherDims.WF S200000x256 S200000x1 S200000x256 [1] [0] [] [0] [] 1 ![1, 256]
  dot_S2000x256_S256x256_S2000x256_1_0_0_1_n_n_wf : DotDims.WF S2000x256 S256x256 S2000x256 [1] [0] [0] [1] [] []
  scatter_S200000x256_S200000x1_S200000x256_1_0_0_1_wf : ScatterDims.WF S200000x256 S200000x1 S200000x256 [1] [0] [0] 1
  dot_S1000x256_S256x768_S1000x768_1_0_0_1_n_n_wf : DotDims.WF S1000x256 S256x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S200000x256.size a
  hwx0_1 : ∀ i : grid0.Coords, EltTy.bits .f32 = 32 ∨ (Rect.block (s := S200000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S200000x256.size a
  hwx0_4 : ∀ i : grid0.Coords, EltTy.bits .f32 = 32 ∨ (Rect.block (s := S200000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S200000x256.size a
  hwx1_0 : ∀ i : grid1.Coords, EltTy.bits .f32 = 32 ∨ (Rect.block (s := S200000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S200000x256.size a
  hwx1_1 : ∀ i : grid1.Coords, EltTy.bits .f32 = 32 ∨ (Rect.block (s := S200000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S200000x256.size a
  hwx1_2 : ∀ i : grid1.Coords, EltTy.bits .f32 = 32 ∨ (Rect.block (s := S200000x256) S1000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x768.size a ≤ S256x768.size a
  hwx1_3 : ∀ i : grid1.Coords, EltTy.bits .f32 = 32 ∨ (Rect.block (s := S256x768) S256x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x768.size a ≤ S256x768.size a
  hwx1_4 : ∀ i : grid1.Coords, EltTy.bits .f32 = 32 ∨ (Rect.block (s := S256x768) S256x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x256.size a ≤ S200000x256.size a
  hwx1_6 : ∀ i : grid1.Coords, EltTy.bits .f32 = 32 ∨ (Rect.block (s := S200000x256) S1000x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x256.size a ≤ S200000x256.size a
  hwx1_7 : ∀ i : grid1.Coords, EltTy.bits .f32 = 32 ∨ (Rect.block (s := S200000x256) S1000x256.size (cc1_transform_7 i) (hinb1_7 i)).WholeWords (EltTy.packing .f32)

variable [Facts₀]

def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S200000x256_S200000x1_S200000x256_1_0_0_1 : ScatterDims S200000x256 S200000x1 S200000x256 where
  updateWindowDims := [1]
  insertedWindowDims := [0]
  scatterDimsToOperandDims := [0]
  indexVectorDim := 1
  wf := scatter_S200000x256_S200000x1_S200000x256_1_0_0_1_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf

abbrev win0_0 : Pipeline.Window sig grid0 :=
  Pipeline.Window.ofSpec (Memref.whole main_v6) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S256x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S256x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26_0) S1000x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26_1) S1000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S200000x256 : Shape := ⟨2, ![200000, 256]⟩
abbrev S200000 : Shape := ⟨1, ![200000]⟩
abbrev S1024x256 : Shape := ⟨2, ![1024, 256]⟩
abbrev S768x256 : Shape := ⟨2, ![768, 256]⟩
abbrev S1x768 : Shape := ⟨2, ![1, 768]⟩
abbrev S256x256 : Shape := ⟨2, ![256, 256]⟩
abbrev S256 : Shape := ⟨1, ![256]⟩
abbrev S256x1024 : Shape := ⟨2, ![256, 1024]⟩
abbrev S200000x1024 : Shape := ⟨2, ![200000, 1024]⟩
abbrev S200000x768 : Shape := ⟨2, ![200000, 768]⟩
abbrev S_ : Shape := ⟨0, ![]⟩
abbrev S200000x1 : Shape := ⟨2, ![200000, 1]⟩
abbrev S1x256 : Shape := ⟨2, ![1, 256]⟩
abbrev S256x768 : Shape := ⟨2, ![256, 768]⟩

abbrev nBuf : Space → Nat
  | .hbm => 82
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000x256, .f32⟩
  | .hbm, ⟨3, _⟩ => ⟨S200000, .i32⟩
  | .hbm, ⟨4, _⟩ => ⟨S200000, .i32⟩
  | .hbm, ⟨5, _⟩ => ⟨S1024x256, .f32⟩
  | .hbm, ⟨6, _⟩ => ⟨S768x256, .f32⟩
  | .hbm, ⟨7, _⟩ => ⟨S1x768, .f32⟩
  | .hbm, ⟨8, _⟩ => ⟨S256x256, .f32⟩
  | .hbm, ⟨9, _⟩ => ⟨S256, .f32⟩
  | .hbm, ⟨10, _⟩ => ⟨S256x1024, .f32⟩
  | .hbm, ⟨11, _⟩ => ⟨S200000x1024, .f32⟩
  | .hbm, ⟨12, _⟩ => ⟨S200000x768, .f32⟩
  | .hbm, ⟨13, _⟩ => ⟨S_, .i32⟩
  | .hbm, ⟨14, _⟩ => ⟨S200000, .i32⟩
  | .hbm, ⟨15, _⟩ => ⟨S200000, .i1⟩
  | .hbm, ⟨16, _⟩ => ⟨S_, .i32⟩
  | .hbm, ⟨17, _⟩ => ⟨S200000, .i32⟩
  | .hbm, ⟨18, _⟩ => ⟨S200000, .i32⟩
  | .hbm, ⟨19, _⟩ => ⟨S200000, .i32⟩
  | .hbm, ⟨20, _⟩ => ⟨S200000x1, .i32⟩
  | .hbm, ⟨21, _⟩ => ⟨S200000x256, .f32⟩
  | .hbm, ⟨22, _⟩ => ⟨S_, .i32⟩
  | .hbm, ⟨23, _⟩ => ⟨S200000, .i32⟩
  | .hbm, ⟨24, _⟩ => ⟨S200000, .i1⟩
  | .hbm, ⟨25, _⟩ => ⟨S_, .i32⟩
  | .hbm, ⟨26, _⟩ => ⟨S200000, .i32⟩
  | .hbm, ⟨27, _⟩ => ⟨S200000, .i32⟩
  | .hbm, ⟨28, _⟩ => ⟨S200000, .i32⟩
  | .hbm, ⟨29, _⟩ => ⟨S200000x1, .i32⟩
  | .hbm, ⟨30, _⟩ => ⟨S200000x256, .f32⟩
  | .hbm, ⟨31, _⟩ => ⟨S_, .f32⟩
  | .hbm, ⟨32, _⟩ => ⟨S200000x256, .f32⟩
  | .hbm, ⟨33, _⟩ => ⟨S200000x1, .i32⟩
  | .hbm, ⟨34, _⟩ => ⟨S200000x256, .f32⟩
  | .hbm, ⟨35, _⟩ => ⟨S256x256, .f32⟩
  | .hbm, ⟨36, _⟩ => ⟨S200000x256, .f32⟩
  | .hbm, ⟨37, _⟩ => ⟨S1x256, .f32⟩
  | .hbm, ⟨38, _⟩ => ⟨S200000x256, .f32⟩
  | .hbm, ⟨39, _⟩ => ⟨S200000x256, .f32⟩
  | .hbm, ⟨40, _⟩ => ⟨S200000x256, .f32⟩
  | .hbm, ⟨41, _⟩ => ⟨S200000x256, .f32⟩
  | .hbm, ⟨42, _⟩ => ⟨S_, .f32⟩
  | .hbm, ⟨43, _⟩ => ⟨S200000x256, .f32⟩
  | .hbm, ⟨44, _⟩ => ⟨S200000x256, .f32⟩
  | .hbm, ⟨45, _⟩ => ⟨S_, .f32⟩
  | .hbm, ⟨46, _⟩ => ⟨S200000x256, .f32⟩
  | .hbm, ⟨47, _⟩ => ⟨S200000x256, .f32⟩
  | .hbm, ⟨48, _⟩ => ⟨S200000x256, .f32⟩
  | .hbm, ⟨49, _⟩ => ⟨S_, .f32⟩
  | .hbm, ⟨50, _⟩ => ⟨S200000x256, .f32⟩
  | .hbm, ⟨51, _⟩ => ⟨S200000x1, .i32⟩
  | .hbm, ⟨52, _⟩ => ⟨S200000x256, .f32⟩
  | .hbm, ⟨53, _⟩ => ⟨S256x768, .f32⟩
  | .hbm, ⟨54, _⟩ => ⟨S200000x768, .f32⟩
  | .hbm, ⟨55, _⟩ => ⟨S200000x768, .f32⟩
  | .hbm, ⟨56, _⟩ => ⟨S200000x768, .f32⟩
  | .hbm, ⟨57, _⟩ => ⟨S200000x768, .f32⟩
  | .hbm, ⟨58, _⟩ => ⟨S200000x256, .f32⟩
  | .hbm, ⟨59, _⟩ => ⟨S200000x256, .f32⟩
  | .hbm, ⟨60, _⟩ => ⟨S200000x256, .f32⟩
  | .hbm, ⟨61, _⟩ => ⟨S200000x256, .f32⟩
  | .hbm, ⟨62, _⟩ => ⟨S200000x256, .f32⟩
  | .hbm, ⟨63, _⟩ => ⟨S_, .f32⟩
  | .hbm, ⟨64, _⟩ => ⟨S200000x256, .f32⟩
  | .hbm, ⟨65, _⟩ => ⟨S200000x256, .f32⟩
  | .hbm, ⟨66, _⟩ => ⟨S_, .f32⟩
  | .hbm, ⟨67, _⟩ => ⟨S200000x256, .f32⟩
  | .hbm, ⟨68, _⟩ => ⟨S200000x256, .f32⟩
  | .hbm, ⟨69, _⟩ => ⟨S200000x256, .f32⟩
  | .hbm, ⟨70, _⟩ => ⟨S200000x256, .f32⟩
  | .hbm, ⟨71, _⟩ => ⟨S200000x256, .f32⟩
  | .hbm, ⟨72, _⟩ => ⟨S200000x256, .f32⟩
  | .hbm, ⟨73, _⟩ => ⟨S200000x256, .f32⟩
  | .hbm, ⟨74, _⟩ => ⟨S_, .f32⟩
  | .hbm, ⟨75, _⟩ => ⟨S200000x256, .f32⟩
  | .hbm, ⟨76, _⟩ => ⟨S200000x256, .f32⟩
  | .hbm, ⟨77, _⟩ => ⟨S_, .f32⟩
  | .hbm, ⟨78, _⟩ => ⟨S200000x256, .f32⟩
  | .hbm, ⟨79, _⟩ => ⟨S200000x256, .f32⟩
  | .hbm, ⟨80, _⟩ => ⟨S200000x256, .f32⟩
  | .hbm, ⟨81, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  transposes_S1024x256_S256x1024_1_0 : S1024x256.Transposes [1, 0] S256x1024
  slices_S200000x1024_S200000x768_0_0 : S200000x1024.Slices ![0, 0] S200000x768
  bcast_S_S200000 : S_.BroadcastsInDim S200000 (![] : Fin 0 → Fin S200000.rank)
  bcast_S200000_S200000x1_0 : S200000.BroadcastsInDim S200000x1 (![0] : Fin 1 → Fin S200000x1.rank)
  bcast_S_S200000x256 : S_.BroadcastsInDim S200000x256 (![] : Fin 0 → Fin S200000x256.rank)
  transposes_S256x256_S256x256_1_0 : S256x256.Transposes [1, 0] S256x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  transposes_S768x256_S256x768_1_0 : S768x256.Transposes [1, 0] S256x768
  bcast_S1x768_S200000x768_0_1 : S1x768.BroadcastsInDim S200000x768 (![0, 1] : Fin 2 → Fin S200000x768.rank)
  slices_S200000x768_S200000x256_0_0 : S200000x768.Slices ![0, 0] S200000x256
  slices_S200000x768_S200000x256_0_256 : S200000x768.Slices ![0, 256] S200000x256
  slices_S200000x768_S200000x256_0_512 : S200000x768.Slices ![0, 512] S200000x256
  dot_S200000x256_S256x1024_S200000x1024_1_0_0_1_n_n_wf : DotDims.WF S200000x256 S256x1024 S200000x1024 [1] [0] [0] [1] [] []
  gather_S200000x256_S200000x1_S200000x256_1_0_n_n_0_1_1256_wf : GatherDims.WF S200000x256 S200000x1 S200000x256 [1] [0] [] [0] [] 1 ![1, 256]
  scatter_S200000x256_S200000x1_S200000x256_1_0_0_1_wf : ScatterDims.WF S200000x256 S200000x1 S200000x256 [1] [0] [0] 1
  dot_S200000x256_S256x256_S200000x256_1_0_0_1_n_n_wf : DotDims.WF S200000x256 S256x256 S200000x256 [1] [0] [0] [1] [] []
  dot_S200000x256_S256x768_S200000x768_1_0_0_1_n_n_wf : DotDims.WF S200000x256 S256x768 S200000x768 [1] [0] [0] [1] [] []

variable [Facts₀]

def dot_S200000x256_S256x1024_S200000x1024_1_0_0_1_n_n : DotDims S200000x256 S256x1024 S200000x1024 where
  lhsContracting := [1]
  rhsContracting := [0]
  lhsNonContracting := [0]
  rhsNonContracting := [1]
  lhsBatch := []
  rhsBatch := []
  wf := dot_S200000x256_S256x1024_S200000x1024_1_0_0_1_n_n_wf
def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def scatter_S200000x256_S200000x1_S200000x256_1_0_0_1 : ScatterDims S200000x256 S200000x1 S200000x256 where
  updateWindowDims := [1]
  insertedWindowDims := [0]
  scatterDimsToOperandDims := [0]
  indexVectorDim := 1
  wf := scatter_S200000x256_S200000x1_S200000x256_1_0_0_1_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S200000x256_S256x768_S200000x768_1_0_0_1_n_n : DotDims S200000x256 S256x768 S200000x768 where
  lhsContracting := [1]
  rhsContracting := [0]
  lhsNonContracting := [0]
  rhsNonContracting := [1]
  lhsBatch := []
  rhsBatch := []
  wf := dot_S200000x256_S256x768_S200000x768_1_0_0_1_n_n_wf

class Facts : Prop extends Facts₀ where

variable [Facts]
-- ==== Proof.KernelRun.lean ====
/-
  The idealized kernel program's run, with every result array named.

  The program is four segments: host operations, the per-edge region, host operations, the per-node region.  Its
  generated frame threads the buffer contents through the segments (the fold `W0 … W4`) and then keeps only the
  arguments.  Here the same launch is read once more with the whole final contents kept: after any weakly fair
  execution every unscoped buffer of a core holds `W4` there, so the two results are `W4` at their buffers and the
  arguments are the launch memory.
-/
import proofs.«143361_j12644383719723_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and in its final state each unscoped buffer of each core
    holds the last boundary's contents `W4`. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the two results and the ten arguments read off: a result is `W4` at its buffer, an argument
    is the launch memory. -/
theorem run_named : θ_run defs (onTc (τ := τ) (main (F := F))) ⟨m, fun _ => 0, ρ⟩ (fun r => ∀ c : Dev nD,
      r.2.mem ((c.tc : Thread nD τ).loc main_v26_0) = W4 m ρ c (Proc.devRef .tc main_v26_0)
      ∧ r.2.mem ((c.tc : Thread nD τ).loc main_v26_1) = W4 m ρ c (Proc.devRef .tc main_v26_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v26_0 (by decide)),
       h c _ (mem_uc main_v26_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
    (run_boundary m ρ)

end Cert.KernelIdeal.Whole

end
-- ==== Proof.LibPlainMatmul.lean ====
/-
  A plain matrix product read at an entry.

  For a contraction of the second axis of an [M, K] operand with the first axis of a [K, N] operand (no batch
  axes), accumulated into the zero array, the entry (p, c) of the result at the ideal instance is the textbook sum
  over k of a(p, k) · b(k, c).  The four hypotheses say where the dimension record sends an output index and a
  contraction index on each operand axis; for a concrete record each is one line.
-/
import Idealize.ShloMosaic.Lib.ValueIdx
import Idealize.ShloMosaic.PureOps.Ideal.Laws

noncomputable section

namespace Cert.Lib

open Idealize.ShloMosaic Idealize.ShloMosaic.ValueIdx

/-- Entry (p, c) of an [M, K] × [K, N] product into the zero accumulator is `∑ k, a (p, k) * b (k, c)` on the
    extended reals: the contraction shape's one axis is re-indexed by `Fin K`, and the record's operand indices
    are rows of `a` and columns of `b`. -/
theorem matmul_zero_rows_cols {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (a : FVec Ideal ⟨2, ![M, K]⟩ φ₁) (b : FVec Ideal ⟨2, ![K, N]⟩ φ₂) (p : Fin M) (c : Fin N) :
    FloatOps.matmul D prec a b (constant ⟨2, ![M, N]⟩ .f32 0x00000000#32) (ix2 p c)
      = ∑ k : Fin K, a (ix2 p k) * b (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun x => Fin.ext (by
    match x with
    | ⟨0, _⟩ => exact hl0 _ _
    | ⟨1, _⟩ => exact (hl1 _ _).trans hk)
  have er : D.rhsIdx (ix2 p c) ((contrEquiv1 D K hr hs).symm k) = ix2 k c := funext fun x => Fin.ext (by
    match x with
    | ⟨0, _⟩ => exact (hr0 _ _).trans hk
    | ⟨1, _⟩ => exact hr1 _ _)
  rw [el, er]

end Cert.Lib

end
-- ==== Proof.EdgePayload.lean ====
/-
  What the per-edge kernel body stores, read at one entry.

  The body loads a block of 2000 gathered child hidden rows `hs`, the matching child cell rows `cs`, the whole
  transposed forget weight `wt` ([256, 256], row k = input feature k) and the bias row `b` ([1, 256]), and stores
  sigmoid(hs · wt + b) * cs.  At the ideal instance the rounding to bf16 on the way into the matrix unit is the
  identity, so entry (p, q) is  logistic(∑ k, hs(p, k) · wt(k, q) + b(0, q)) · cs(p, q).
-/
import proofs.«143361_j12644383719723_1_alg».proof.Proof.Gen.KernelIdeal.Skeleton
import proofs.«143361_j12644383719723_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Edge

open Idealize.ShloMosaic Idealize.ShloMosaic.ValueIdx Cert.KernelIdeal Cert.KernelIdeal.Gen

/-- On the left operand of the edge product an output row is the operand's row. -/
theorem lhs_row (j : S2000x256.Idx) (q : dot_S2000x256_S256x256_S2000x256_1_0_0_1_n_n.contr.Idx) :
    (dot_S2000x256_S256x256_S2000x256_1_0_0_1_n_n.lhsIdx j q 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- Its column is the contraction index. -/
theorem lhs_col (j : S2000x256.Idx) (q : dot_S2000x256_S256x256_S2000x256_1_0_0_1_n_n.contr.Idx) :
    (dot_S2000x256_S256x256_S2000x256_1_0_0_1_n_n.lhsIdx j q 1).val = (q ⟨0, by decide⟩).val :=
  dot_S2000x256_S256x256_S2000x256_1_0_0_1_n_n.lhsIdx_val_of_single rfl j q
/-- On the right operand the row is the contraction index. -/
theorem rhs_row (j : S2000x256.Idx) (q : dot_S2000x256_S256x256_S2000x256_1_0_0_1_n_n.contr.Idx) :
    (dot_S2000x256_S256x256_S2000x256_1_0_0_1_n_n.rhsIdx j q 0).val = (q ⟨0, by decide⟩).val :=
  dot_S2000x256_S256x256_S2000x256_1_0_0_1_n_n.rhsIdx_val_of_single rfl j q
/-- And the column is the output column. -/
theorem rhs_col (j : S2000x256.Idx) (q : dot_S2000x256_S256x256_S2000x256_1_0_0_1_n_n.contr.Idx) :
    (dot_S2000x256_S256x256_S2000x256_1_0_0_1_n_n.rhsIdx j q 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The stored block at (p, q): the forget gate of edge p on feature q times the child's cell entry. -/
theorem gated_apply (hs cs : FVec Ideal S2000x256 .f32) (wt : FVec Ideal S256x256 .f32) (b : FVec Ideal S1x256 .f32)
    (p : Fin 2000) (q : Fin 256) :
    k0_pay1 (F := Ideal) hs cs wt b (ix2 p q)
      = Ideal.logistic ((∑ k : Fin 256, hs (ix2 p k) * wt (ix2 k q)) + b (ix2 (0 : Fin 1) q)) * cs (ix2 p q) := by
  unfold k0_pay1
  simp only [shapeCast_self]
  exact congrArg₂ (fun u v : EReal => Ideal.logistic (u + v) * cs (ix2 p q))
    (Cert.Lib.matmul_zero_rows_cols dot_S2000x256_S256x256_S2000x256_1_0_0_1_n_n none rfl rfl lhs_row lhs_col rhs_row rhs_col
      (truncf .bf16 hs bitsLt_bf16_f32) (truncf .bf16 wt bitsLt_bf16_f32) p q)
    (broadcastTo_1b_ab_apply b broadcasts_S1x256_S2000x256 p q)

end Cert.KernelIdeal.Edge

end
-- ==== Proof.EdgeArray.lean ====
/-
  The per-edge region's result as one function of the arrays it is entered with.

  The region has 100 grid points; point t reads rows 2000·t … 2000·t + 1999 of the gathered child hidden and cell
  arrays, the whole transposed forget weight and the bias row, and writes back the same rows of its result.  So the
  result array ends holding, at edge e and feature q,
      logistic(∑ k, hs(e, k) · wt(k, q) + b(0, q)) · cs(e, q),
  a function of the entry contents alone: each write-back is the block of that function, and the blocks cover the array.
-/
import proofs.«143361_j12644383719723_1_alg».proof.Proof.Gen.KernelIdeal.Frame
import proofs.«143361_j12644383719723_1_alg».proof.Proof.EdgePayload
import Idealize.ShloMosaic.Lib.Pipeline.Value

set_option maxRecDepth 16384

noncomputable section

namespace Cert.KernelIdeal.Edge

open Idealize.ShloMosaic Idealize.ShloMosaic.TcCoe Idealize.ShloMosaic.ValueIdx Idealize.SL.Sem
open Idealize.ShloMosaic.Pipeline (Dat)
open Cert.KernelIdeal Cert.KernelIdeal.Gen

/-- The gated child cell entry of edge `e` on feature `q`, from whole arrays. -/
def gatedAt (hs cs : FVec Ideal S200000x256 .f32) (wt : FVec Ideal S256x256 .f32) (b : FVec Ideal S1x256 .f32)
    (e : Fin 200000) (q : Fin 256) : EReal :=
  Ideal.logistic ((∑ k : Fin 256, hs (ix2 e k) * wt (ix2 k q)) + b (ix2 (0 : Fin 1) q)) * cs (ix2 e q)

/-- The same as an array over (edge, feature). -/
def gated (hs cs : FVec Ideal S200000x256 .f32) (wt : FVec Ideal S256x256 .f32) (b : FVec Ideal S1x256 .f32) :
    FVec Ideal S200000x256 .f32 := fun i => gatedAt hs cs wt b (i 0) (i 1)

/-- Row `p` of the block of grid point `T` is edge `2000·T + p`. -/
abbrev edgeRow (T : ℕ) (hT : T < 100) (p : Fin 2000) : Fin 200000 := ⟨T * 2000 + p.val, by have := p.isLt; omega⟩

/-- A block's stored entry is the whole-array function at the block's edge, given that the loaded blocks are those
    rows of the arrays and the two small operands are loaded whole. -/
theorem block_entry (hsA csA : FVec Ideal S200000x256 .f32) (wt : FVec Ideal S256x256 .f32) (b : FVec Ideal S1x256 .f32)
    (x0 x1 : FVec Ideal S2000x256 .f32) (x2 : FVec Ideal S256x256 .f32) (x3 : FVec Ideal S1x256 .f32)
    (T : ℕ) (hT : T < 100)
    (h0 : ∀ (p : Fin 2000) (k : Fin 256), x0 (ix2 p k) = hsA (ix2 (edgeRow T hT p) k))
    (h1 : ∀ (p : Fin 2000) (k : Fin 256), x1 (ix2 p k) = csA (ix2 (edgeRow T hT p) k))
    (h2 : x2 = wt) (h3 : x3 = b) (p : Fin 2000) (q : Fin 256) :
    k0_pay1 (F := Ideal) x0 x1 x2 x3 (ix2 p q) = gatedAt hsA csA wt b (edgeRow T hT p) q := by
  subst h2 h3
  rw [gated_apply]
  unfold gatedAt
  simp only [h0, h1]

section Region

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the two edge-row inputs and the output move with the point along axis 0,
    the weight and the bias stay at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 100 := Nat.lt_of_lt_of_eq t.isLt N_0

/-- The child hidden block at point `t` is rows 2000·t … of the gathered hidden array. -/
theorem hidden_rows (c : Dev nD) (t : Fin cfg0.N) (p : Fin 2000) (k : Fin 256) :
    (iblk0 V c 0 t : FVec Ideal S2000x256 .f32) (ix2 p k)
      = (V c main_v6 : FVec Ideal S200000x256 .f32) (ix2 (edgeRow t.val (point_lt t) p) k) := by
  obtain ⟨e0, e1, -⟩ := idx_facts t
  unfold iblk0
  rw [View.read_apply]
  show V c main_v6 _ = V c main_v6 _
  refine congrArg (V c main_v6) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 256 + 1 * k.val = k.val; rw [e1]; omega

/-- The child cell block at point `t` is the same rows of the gathered cell array. -/
theorem cell_rows (c : Dev nD) (t : Fin cfg0.N) (p : Fin 2000) (k : Fin 256) :
    (iblk0 V c 1 t : FVec Ideal S2000x256 .f32) (ix2 p k)
      = (V c main_v13 : FVec Ideal S200000x256 .f32) (ix2 (edgeRow t.val (point_lt t) p) k) := by
  obtain ⟨-, -, e0, e1, -⟩ := idx_facts t
  unfold iblk0
  rw [View.read_apply]
  show V c main_v13 _ = V c main_v13 _
  refine congrArg (V c main_v13) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 256 + 1 * k.val = k.val; rw [e1]; omega

/-- The weight's one block is the whole transposed weight. -/
theorem weight_whole (c : Dev nD) (t : Fin cfg0.N) :
    (iblk0 V c 2 t : FVec Ideal S256x256 .f32) = (V c main_v14 : FVec Ideal S256x256 .f32) := by
  obtain ⟨-, -, -, -, e0, e1, -⟩ := idx_facts t
  funext y
  unfold iblk0
  rw [View.read_apply]
  show V c main_v14 _ = V c main_v14 y
  refine congrArg (V c main_v14) (funext fun a => Fin.ext ?_)
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- The bias's one block is the whole bias row. -/
theorem bias_whole (c : Dev nD) (t : Fin cfg0.N) :
    (iblk0 V c 3 t : FVec Ideal S1x256 .f32) = (V c main_v15 : FVec Ideal S1x256 .f32) := by
  obtain ⟨-, -, -, -, -, -, e0, e1, -⟩ := idx_facts t
  funext y
  unfold iblk0
  rw [View.read_apply]
  show V c main_v15 _ = V c main_v15 y
  refine congrArg (V c main_v15) (funext fun a => Fin.ext ?_)
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

/-- What point `t` writes back is block `t` of the whole-array function of the entry contents. -/
theorem flushed_eq (c : Dev nD) (t : Fin cfg0.N) :
    (dat0 V c).flushed 4 t = ((cfg0.win 4).blk t).view.read (Elt Ideal)
      (gated (V c main_v6) (V c main_v13) (V c main_v14) (V c main_v15)) := by
  show (cfg0.win 4).cut (grid0.coords t) ((dat0 V c).after 4 t) = _
  rw [after0_4]
  unfold out0_4
  rw [View.canon_unit_zero hz]
  simp only [View.ld_unit_zero (S := S2000x256) hz, View.ld_unit_zero (S := S256x256) hz, View.ld_unit_zero (S := S1x256) hz]
  obtain ⟨-, -, -, -, -, -, -, -, e0, e1⟩ := idx_facts t
  funext y
  obtain ⟨p, q, rfl⟩ : ∃ (p : Fin 2000) (q : Fin 256), y = ix2 p q := ⟨y 0, y 1, eq_ix2 y⟩
  show k0_pay1 (F := Ideal) (iblk0 V c 0 t) (iblk0 V c 1 t) (iblk0 V c 2 t) (iblk0 V c 3 t) (ix2 p q) = _
  refine (block_entry (V c main_v6) (V c main_v13) (V c main_v14) (V c main_v15) (iblk0 V c 0 t) (iblk0 V c 1 t)
    (iblk0 V c 2 t) (iblk0 V c 3 t) t.val (point_lt t) (hidden_rows V c t) (cell_rows V c t) (weight_whole V c t)
    (bias_whole V c t) p q).trans ?_
  rw [View.read_apply]
  unfold gated
  refine congrArg₂ (gatedAt (V c main_v6) (V c main_v13) (V c main_v14) (V c main_v15)) (Fin.ext ?_) (Fin.ext ?_)
  · show t.val * 2000 + p.val = win0_4.index t (0 : Fin 2) * 2000 + 1 * p.val; rw [e0]; omega
  · show q.val = win0_4.index t (1 : Fin 2) * 256 + 1 * q.val; rw [e1]; omega

/-- An index of the result array is in point `t`'s block iff each coordinate is in the block's range. -/
theorem mem_blk (t : Fin cfg0.N) (i : S200000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v16).slice (win0_4.rect t)).set ↔ _
  rw [View.set_slice_whole, Rect.mem_set_unit]
  exact Iff.rfl

/-- Every edge row lies in the block of point `row / 2000`, and every point writes back. -/
theorem covered (i : S200000x256.Idx) :
    ∃ t : Fin cfg0.N, (cfg0.win 4).flush t = true ∧ i ∈ ((cfg0.win 4).blk t).view.set := by
  have hi0 : (i 0).val < 200000 := (i 0).isLt
  have hi1 : (i 1).val < 256 := (i 1).isLt
  obtain ⟨t, ht⟩ : ∃ t : Fin cfg0.N, t.val = (i 0).val / 2000 :=
    ⟨⟨(i 0).val / 2000, by rw [show cfg0.N = 100 from N_0]; omega⟩, rfl⟩
  obtain ⟨-, -, -, -, -, -, -, -, e0, e1⟩ := idx_facts t
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; rw [e0]; omega
  | ⟨1, _⟩ => show win0_4.index t (1 : Fin 2) * 256 ≤ (i 1).val ∧ (i 1).val < win0_4.index t (1 : Fin 2) * 256 + 256; rw [e1]; omega

/-- The result array after the region: the whole-array function of the arrays the region was entered with. -/
theorem final (c : Dev nD) :
    (dat0 V c).arrAt 4 cfg0.N = gated (V c main_v6) (V c main_v13) (V c main_v14) (V c main_v15) :=
  (dat0 V c).arrAt_eq_of_cover 4 _ (fun t _ => flushed_eq V c t) (covered)

end Region

end Cert.KernelIdeal.Edge

end
-- ==== Proof.NodePayload.lean ====
/-
  What the per-node kernel body stores, read at one entry.

  The body loads a block of 1000 node rows of the input `x`, of the summed child hidden states `hsum` and of the
  gated child cell sum `cagg`, the two whole transposed weights `wx`, `wu` ([256, 768]) and the bias row `b`
  ([1, 768]).  With  pre(p, q) = (∑ k, x(p, k) · wx(k, q) + ∑ k, hsum(p, k) · wu(k, q)) + b(0, q)  for the 768
  gate columns, the new cell entry is  logistic(pre(p, j)) · tanh(pre(p, 512 + j)) + cagg(p, j)  and the new hidden
  entry is  logistic(pre(p, 256 + j)) · tanh(new cell (p, j)).
-/
import proofs.«143361_j12644383719723_1_alg».proof.Proof.Gen.KernelIdeal.Skeleton
import proofs.«143361_j12644383719723_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Node

open Idealize.ShloMosaic Idealize.ShloMosaic.ValueIdx Cert.KernelIdeal Cert.KernelIdeal.Gen

/-- On the left operand of a node product an output row is the operand's row. -/
theorem lhs_row (j : S1000x768.Idx) (q : dot_S1000x256_S256x768_S1000x768_1_0_0_1_n_n.contr.Idx) :
    (dot_S1000x256_S256x768_S1000x768_1_0_0_1_n_n.lhsIdx j q 0).val = (j 0).val := by
  unfold DotDims.lhsIdx
  rw [dif_neg (show ¬(0 : Fin S1000x256.rank) ∈ dot_S1000x256_S256x768_S1000x768_1_0_0_1_n_n.lhsBatch by decide), dif_pos (show (0 : Fin S1000x256.rank) ∈ dot_S1000x256_S256x768_S1000x768_1_0_0_1_n_n.lhsNonContracting by decide)]
  rfl
/-- Its column is the contraction index. -/
theorem lhs_col (j : S1000x768.Idx) (q : dot_S1000x256_S256x768_S1000x768_1_0_0_1_n_n.contr.Idx) :
    (dot_S1000x256_S256x768_S1000x768_1_0_0_1_n_n.lhsIdx j q 1).val = (q ⟨0, by decide⟩).val :=
  dot_S1000x256_S256x768_S1000x768_1_0_0_1_n_n.lhsIdx_val_of_single rfl j q
/-- On the right operand the row is the contraction index. -/
theorem rhs_row (j : S1000x768.Idx) (q : dot_S1000x256_S256x768_S1000x768_1_0_0_1_n_n.contr.Idx) :
    (dot_S1000x256_S256x768_S1000x768_1_0_0_1_n_n.rhsIdx j q 0).val = (q ⟨0, by decide⟩).val :=
  dot_S1000x256_S256x768_S1000x768_1_0_0_1_n_n.rhsIdx_val_of_single rfl j q
/-- And the column is the output column. -/
theorem rhs_col (j : S1000x768.Idx) (q : dot_S1000x256_S256x768_S1000x768_1_0_0_1_n_n.contr.Idx) :
    (dot_S1000x256_S256x768_S1000x768_1_0_0_1_n_n.rhsIdx j q 1).val = (j 1).val := by
  unfold DotDims.rhsIdx
  rw [dif_neg (show ¬(1 : Fin S256x768.rank) ∈ dot_S1000x256_S256x768_S1000x768_1_0_0_1_n_n.rhsBatch by decide), dif_pos (show (1 : Fin S256x768.rank) ∈ dot_S1000x256_S256x768_S1000x768_1_0_0_1_n_n.rhsNonContracting by decide)]
  rfl

/-- Column `o + j` of the 768 gate columns, for a gate that starts at column `o`. -/
abbrev gateCol (o : ℕ) (ho : o + 256 ≤ 768) (j : Fin 256) : Fin 768 := ⟨o + j.val, by have := j.isLt; omega⟩

/-- The gates' pre-activation at (p, q): the input's and the child sum's projections added, then the bias. -/
theorem pre_apply (x hsum : FVec Ideal S1000x256 .f32) (wx wu : FVec Ideal S256x768 .f32) (b : FVec Ideal S1x768 .f32)
    (p : Fin 1000) (q : Fin 768) :
    k1_pay1 (F := Ideal) x hsum wx wu b (ix2 p q)
      = ((∑ k : Fin 256, x (ix2 p k) * wx (ix2 k q)) + (∑ k : Fin 256, hsum (ix2 p k) * wu (ix2 k q))) + b (ix2 (0 : Fin 1) q) := by
  unfold k1_pay1
  simp only [shapeCast_self]
  exact congrArg₂ (fun u v : EReal => u + v)
    (congrArg₂ (fun u v : EReal => u + v)
      (Cert.Lib.matmul_zero_rows_cols dot_S1000x256_S256x768_S1000x768_1_0_0_1_n_n none rfl rfl lhs_row lhs_col rhs_row rhs_col
        (truncf .bf16 x bitsLt_bf16_f32) (truncf .bf16 wx bitsLt_bf16_f32) p q)
      (Cert.Lib.matmul_zero_rows_cols dot_S1000x256_S256x768_S1000x768_1_0_0_1_n_n none rfl rfl lhs_row lhs_col rhs_row rhs_col
        (truncf .bf16 hsum bitsLt_bf16_f32) (truncf .bf16 wu bitsLt_bf16_f32) p q))
    (broadcastTo_1b_ab_apply b broadcasts_S1x768_S1000x768 p q)

/-- The new cell state at (p, j): input gate (columns 0…255) times candidate (columns 512…767), plus the gated child cells. -/
theorem cell_apply (x hsum cagg : FVec Ideal S1000x256 .f32) (wx wu : FVec Ideal S256x768 .f32) (b : FVec Ideal S1x768 .f32)
    (p : Fin 1000) (j : Fin 256) :
    k1_pay2 (F := Ideal) x hsum cagg wx wu b (ix2 p j)
      = Ideal.logistic (k1_pay1 (F := Ideal) x hsum wx wu b (ix2 p (gateCol 0 (by decide) j)))
          * Ideal.tanh (k1_pay1 (F := Ideal) x hsum wx wu b (ix2 p (gateCol 512 (by decide) j))) + cagg (ix2 p j) := by
  unfold k1_pay2
  simp only [shapeCast_self]
  generalize k1_pay1 (F := Ideal) x hsum wx wu b = pre
  have e1 : extractStridedSlice S1000x256 ![0, 0] pre slices_S1000x768_o0_0_S1000x256 (ix2 p j) = pre (ix2 p (gateCol 0 (by decide) j)) :=
    extractStridedSlice_apply ![0, 0] pre slices_S1000x768_o0_0_S1000x256 (ix2 p j)
      (ix2 p (gateCol 0 (by decide) j)) (fun a => match a with
        | ⟨0, _⟩ => by show p.val = 0 + p.val; omega
        | ⟨1, _⟩ => by show 0 + j.val = 0 + j.val; rfl)
  have e2 : extractStridedSlice S1000x256 ![0, 512] pre slices_S1000x768_o0_512_S1000x256 (ix2 p j) = pre (ix2 p (gateCol 512 (by decide) j)) :=
    extractStridedSlice_apply ![0, 512] pre slices_S1000x768_o0_512_S1000x256 (ix2 p j)
      (ix2 p (gateCol 512 (by decide) j)) (fun a => match a with
        | ⟨0, _⟩ => by show p.val = 0 + p.val; omega
        | ⟨1, _⟩ => by show 512 + j.val = 512 + j.val; rfl)
  exact congrArg₂ (fun u v : EReal => Ideal.logistic u * Ideal.tanh v + cagg (ix2 p j)) e1 e2

/-- The new hidden state at (p, j): output gate (columns 256…511) times tanh of the new cell state. -/
theorem hidden_apply (x hsum cagg : FVec Ideal S1000x256 .f32) (wx wu : FVec Ideal S256x768 .f32) (b : FVec Ideal S1x768 .f32)
    (p : Fin 1000) (j : Fin 256) :
    k1_pay3 (F := Ideal) x hsum cagg wx wu b (ix2 p j)
      = Ideal.logistic (k1_pay1 (F := Ideal) x hsum wx wu b (ix2 p (gateCol 256 (by decide) j)))
          * Ideal.tanh (k1_pay2 (F := Ideal) x hsum cagg wx wu b (ix2 p j)) := by
  unfold k1_pay3
  generalize k1_pay2 (F := Ideal) x hsum cagg wx wu b = cell
  generalize k1_pay1 (F := Ideal) x hsum wx wu b = pre
  have e1 : extractStridedSlice S1000x256 ![0, 256] pre slices_S1000x768_o0_256_S1000x256 (ix2 p j) = pre (ix2 p (gateCol 256 (by decide) j)) :=
    extractStridedSlice_apply ![0, 256] pre slices_S1000x768_o0_256_S1000x256 (ix2 p j)
      (ix2 p (gateCol 256 (by decide) j)) (fun a => match a with
        | ⟨0, _⟩ => by show p.val = 0 + p.val; omega
        | ⟨1, _⟩ => by show 256 + j.val = 256 + j.val; rfl)
  exact congrArg (fun u : EReal => Ideal.logistic u * Ideal.tanh (cell (ix2 p j))) e1

end Cert.KernelIdeal.Node

end
-- ==== Proof.NodeArray.lean ====
/-
  The per-node region's two results as functions of the arrays it is entered with.

  The region has 200 grid points; point t reads rows 1000·t … 1000·t + 999 of the input `x`, of the child hidden sum
  `hsum` and of the gated child cell sum `cagg`, the two whole transposed weights and the bias row, and writes back
  the same rows of the new hidden and the new cell arrays.  With
      pre(n, q) = (∑ k, x(n, k) · wx(k, q) + ∑ k, hsum(n, k) · wu(k, q)) + b(0, q),
  the new cell array is  logistic(pre(n, j)) · tanh(pre(n, 512 + j)) + cagg(n, j)  and the new hidden array is
  logistic(pre(n, 256 + j)) · tanh(new cell (n, j)):  functions of the entry contents alone, whose blocks the
  write-backs are, and the blocks cover each array.
-/
import proofs.«143361_j12644383719723_1_alg».proof.Proof.Gen.KernelIdeal.Frame
import proofs.«143361_j12644383719723_1_alg».proof.Proof.NodePayload
import Idealize.ShloMosaic.Lib.Pipeline.Value

set_option maxRecDepth 16384

noncomputable section

namespace Cert.KernelIdeal.Node

open Idealize.ShloMosaic Idealize.ShloMosaic.TcCoe Idealize.ShloMosaic.ValueIdx Idealize.SL.Sem
open Idealize.ShloMosaic.Pipeline (Dat)
open Cert.KernelIdeal Cert.KernelIdeal.Gen

/-- The gates' pre-activation of node `n` at gate column `q`, from whole arrays. -/
def preAt (x hsum : FVec Ideal S200000x256 .f32) (wx wu : FVec Ideal S256x768 .f32) (b : FVec Ideal S1x768 .f32)
    (n : Fin 200000) (q : Fin 768) : EReal :=
  ((∑ k : Fin 256, x (ix2 n k) * wx (ix2 k q)) + (∑ k : Fin 256, hsum (ix2 n k) * wu (ix2 k q))) + b (ix2 (0 : Fin 1) q)

/-- The new cell state of node `n` on feature `j`. -/
def cellAt (x hsum cagg : FVec Ideal S200000x256 .f32) (wx wu : FVec Ideal S256x768 .f32) (b : FVec Ideal S1x768 .f32)
    (n : Fin 200000) (j : Fin 256) : EReal :=
  Ideal.logistic (preAt x hsum wx wu b n (gateCol 0 (by decide) j)) * Ideal.tanh (preAt x hsum wx wu b n (gateCol 512 (by decide) j))
    + cagg (ix2 n j)

/-- The new hidden state of node `n` on feature `j`. -/
def hiddenAt (x hsum cagg : FVec Ideal S200000x256 .f32) (wx wu : FVec Ideal S256x768 .f32) (b : FVec Ideal S1x768 .f32)
    (n : Fin 200000) (j : Fin 256) : EReal :=
  Ideal.logistic (preAt x hsum wx wu b n (gateCol 256 (by decide) j)) * Ideal.tanh (cellAt x hsum cagg wx wu b n j)

/-- The new cell state as an array over (node, feature). -/
def cell (x hsum cagg : FVec Ideal S200000x256 .f32) (wx wu : FVec Ideal S256x768 .f32) (b : FVec Ideal S1x768 .f32) :
    FVec Ideal S200000x256 .f32 := fun i => cellAt x hsum cagg wx wu b (i 0) (i 1)

/-- The new hidden state as an array over (node, feature). -/
def hidden (x hsum cagg : FVec Ideal S200000x256 .f32) (wx wu : FVec Ideal S256x768 .f32) (b : FVec Ideal S1x768 .f32) :
    FVec Ideal S200000x256 .f32 := fun i => hiddenAt x hsum cagg wx wu b (i 0) (i 1)

/-- Row `p` of the block of grid point `T` is node `1000·T + p`. -/
abbrev nodeRow (T : ℕ) (hT : T < 200) (p : Fin 1000) : Fin 200000 := ⟨T * 1000 + p.val, by have := p.isLt; omega⟩

/-- A block's pre-activation entry is the whole-array one at the block's node, given that the loaded blocks are those
    rows of the arrays and the three small operands are loaded whole. -/
theorem block_pre (xA hsumA : FVec Ideal S200000x256 .f32) (wx wu : FVec Ideal S256x768 .f32) (b : FVec Ideal S1x768 .f32)
    (x0 x1 : FVec Ideal S1000x256 .f32) (x3 x4 : FVec Ideal S256x768 .f32) (x5 : FVec Ideal S1x768 .f32)
    (T : ℕ) (hT : T < 200)
    (h0 : ∀ (p : Fin 1000) (k : Fin 256), x0 (ix2 p k) = xA (ix2 (nodeRow T hT p) k))
    (h1 : ∀ (p : Fin 1000) (k : Fin 256), x1 (ix2 p k) = hsumA (ix2 (nodeRow T hT p) k))
    (h3 : x3 = wx) (h4 : x4 = wu) (h5 : x5 = b) (p : Fin 1000) (q : Fin 768) :
    k1_pay1 (F := Ideal) x0 x1 x3 x4 x5 (ix2 p q) = preAt xA hsumA wx wu b (nodeRow T hT p) q := by
  subst h3 h4 h5
  rw [pre_apply]
  unfold preAt
  simp only [h0, h1]

/-- The same for the stored new cell entry. -/
theorem block_cell (xA hsumA caggA : FVec Ideal S200000x256 .f32) (wx wu : FVec Ideal S256x768 .f32) (b : FVec Ideal S1x768 .f32)
    (x0 x1 x2 : FVec Ideal S1000x256 .f32) (x3 x4 : FVec Ideal S256x768 .f32) (x5 : FVec Ideal S1x768 .f32)
    (T : ℕ) (hT : T < 200)
    (h0 : ∀ (p : Fin 1000) (k : Fin 256), x0 (ix2 p k) = xA (ix2 (nodeRow T hT p) k))
    (h1 : ∀ (p : Fin 1000) (k : Fin 256), x1 (ix2 p k) = hsumA (ix2 (nodeRow T hT p) k))
    (h2 : ∀ (p : Fin 1000) (k : Fin 256), x2 (ix2 p k) = caggA (ix2 (nodeRow T hT p) k))
    (h3 : x3 = wx) (h4 : x4 = wu) (h5 : x5 = b) (p : Fin 1000) (j : Fin 256) :
    k1_pay2 (F := Ideal) x0 x1 x2 x3 x4 x5 (ix2 p j) = cellAt xA hsumA caggA wx wu b (nodeRow T hT p) j := by
  rw [cell_apply, block_pre xA hsumA wx wu b x0 x1 x3 x4 x5 T hT h0 h1 h3 h4 h5,
    block_pre xA hsumA wx wu b x0 x1 x3 x4 x5 T hT h0 h1 h3 h4 h5, h2]
  rfl

/-- And for the stored new hidden entry. -/
theorem block_hidden (xA hsumA caggA : FVec Ideal S200000x256 .f32) (wx wu : FVec Ideal S256x768 .f32) (b : FVec Ideal S1x768 .f32)
    (x0 x1 x2 : FVec Ideal S1000x256 .f32) (x3 x4 : FVec Ideal S256x768 .f32) (x5 : FVec Ideal S1x768 .f32)
    (T : ℕ) (hT : T < 200)
    (h0 : ∀ (p : Fin 1000) (k : Fin 256), x0 (ix2 p k) = xA (ix2 (nodeRow T hT p) k))
    (h1 : ∀ (p : Fin 1000) (k : Fin 256), x1 (ix2 p k) = hsumA (ix2 (nodeRow T hT p) k))
    (h2 : ∀ (p : Fin 1000) (k : Fin 256), x2 (ix2 p k) = caggA (ix2 (nodeRow T hT p) k))
    (h3 : x3 = wx) (h4 : x4 = wu) (h5 : x5 = b) (p : Fin 1000) (j : Fin 256) :
    k1_pay3 (F := Ideal) x0 x1 x2 x3 x4 x5 (ix2 p j) = hiddenAt xA hsumA caggA wx wu b (nodeRow T hT p) j := by
  rw [hidden_apply, block_pre xA hsumA wx wu b x0 x1 x3 x4 x5 T hT h0 h1 h3 h4 h5,
    block_cell xA hsumA caggA wx wu b x0 x1 x2 x3 x4 x5 T hT h0 h1 h2 h3 h4 h5]
  rfl

section Region

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the three node-row inputs and the two outputs move with the point along
    axis 0, the two weights and the bias stay at block (0, 0). -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0
    ∧ win1_7.index t (0 : Fin 2) = t.val
    ∧ win1_7.index t (1 : Fin 2) = 0 :=
  (by decide +kernel : ∀ t : Fin grid1.N, _)

theorem point_lt (t : Fin cfg1.N) : t.val < 200 := Nat.lt_of_lt_of_eq t.isLt N_1

/-- The input block at point `t` is rows 1000·t … of the input array. -/
theorem input_rows (c : Dev nD) (t : Fin cfg1.N) (p : Fin 1000) (k : Fin 256) :
    (iblk1 V c 0 t : FVec Ideal S1000x256 .f32) (ix2 p k)
      = (V c main_arg0 : FVec Ideal S200000x256 .f32) (ix2 (nodeRow t.val (point_lt t) p) k) := by
  have e0 := (idx_facts t).1
  have e1 := (idx_facts t).2.1
  unfold iblk1
  rw [View.read_apply]
  show V c main_arg0 _ = V c main_arg0 _
  refine congrArg (V c main_arg0) (funext fun a => Fin.ext ?_)
  match a with
  | ⟨0, _⟩ => show win1_0.index t (0 : Fin 2) * 1000 + 1 * p.val = t.val * 1000 + p.val; rw [e0]; omega
  | ⟨1, _⟩ => show win1_0.index t (1 : Fin 2) * 256 + 1 * k.val = k.val; rw [e1]; omega

/-- The child hidden sum block at point `t` is the same rows of the summed array. -/
theorem childsum_rows (c : Dev nD) (t : Fin cfg1.N) (p : Fin 1000) (k : Fin 256) :
    (iblk1 V c 1 t : FVec Ideal S1000x256 .f32) (ix2 p k)
      = (V c main_v19 : FVec Ideal S200000x256 .f32) (ix2 (nodeRow t.val (point_lt t) p) k) := by
  have e0 := (idx_facts t).2.2.1
  have e1 := (idx_facts t).2.2.2.1
  unfold iblk1
  rw [View.read_apply]
  show V c main_v19 _ = V c main_v19 _
  refine congrArg (V c main_v19) (funext fun a => Fin.ext ?_)
  match a with
  | ⟨0, _⟩ => show win1_1.index t (0 : Fin 2) * 1000 + 1 * p.val = t.val * 1000 + p.val; rw [e0]; omega
  | ⟨1, _⟩ => show win1_1.index t (1 : Fin 2) * 256 + 1 * k.val = k.val; rw [e1]; omega

/-- The gated child cell sum block at point `t` is the same rows of that array. -/
theorem childcell_rows (c : Dev nD) (t : Fin cfg1.N) (p : Fin 1000) (k : Fin 256) :
    (iblk1 V c 2 t : FVec Ideal S1000x256 .f32) (ix2 p k)
      = (V c main_v22 : FVec Ideal S200000x256 .f32) (ix2 (nodeRow t.val (point_lt t) p) k) := by
  have e0 := (idx_facts t).2.2.2.2.1
  have e1 := (idx_facts t).2.2.2.2.2.1
  unfold iblk1
  rw [View.read_apply]
  show V c main_v22 _ = V c main_v22 _
  refine congrArg (V c main_v22) (funext fun a => Fin.ext ?_)
  match a with
  | ⟨0, _⟩ => show win1_2.index t (0 : Fin 2) * 1000 + 1 * p.val = t.val * 1000 + p.val; rw [e0]; omega
  | ⟨1, _⟩ => show win1_2.index t (1 : Fin 2) * 256 + 1 * k.val = k.val; rw [e1]; omega

/-- The input weight's one block is the whole transposed weight. -/
theorem inweight_whole (c : Dev nD) (t : Fin cfg1.N) :
    (iblk1 V c 3 t : FVec Ideal S256x768 .f32) = (V c main_v24 : FVec Ideal S256x768 .f32) := by
  have e0 := (idx_facts t).2.2.2.2.2.2.1
  have e1 := (idx_facts t).2.2.2.2.2.2.2.1
  funext y
  unfold iblk1
  rw [View.read_apply]
  show V c main_v24 _ = V c main_v24 y
  refine congrArg (V c main_v24) (funext fun a => Fin.ext ?_)
  match a with
  | ⟨0, _⟩ => show win1_3.index t (0 : Fin 2) * 256 + 1 * (y 0).val = (y 0).val; rw [e0]; omega
  | ⟨1, _⟩ => show win1_3.index t (1 : Fin 2) * 768 + 1 * (y 1).val = (y 1).val; rw [e1]; omega

/-- The child weight's one block is the whole transposed weight. -/
theorem childweight_whole (c : Dev nD) (t : Fin cfg1.N) :
    (iblk1 V c 4 t : FVec Ideal S256x768 .f32) = (V c main_v25 : FVec Ideal S256x768 .f32) := by
  have e0 := (idx_facts t).2.2.2.2.2.2.2.2.1
  have e1 := (idx_facts t).2.2.2.2.2.2.2.2.2.1
  funext y
  unfold iblk1
  rw [View.read_apply]
  show V c main_v25 _ = V c main_v25 y
  refine congrArg (V c main_v25) (funext fun a => Fin.ext ?_)
  match a with
  | ⟨0, _⟩ => show win1_4.index t (0 : Fin 2) * 256 + 1 * (y 0).val = (y 0).val; rw [e0]; omega
  | ⟨1, _⟩ => show win1_4.index t (1 : Fin 2) * 768 + 1 * (y 1).val = (y 1).val; rw [e1]; omega

/-- The bias's one block is the whole bias row. -/
theorem bias_whole (c : Dev nD) (t : Fin cfg1.N) :
    (iblk1 V c 5 t : FVec Ideal S1x768 .f32) = (V c main_arg7 : FVec Ideal S1x768 .f32) := by
  have e0 := (idx_facts t).2.2.2.2.2.2.2.2.2.2.1
  have e1 := (idx_facts t).2.2.2.2.2.2.2.2.2.2.2.1
  funext y
  unfold iblk1
  rw [View.read_apply]
  show V c main_arg7 _ = V c main_arg7 y
  refine congrArg (V c main_arg7) (funext fun a => Fin.ext ?_)
  match a with
  | ⟨0, _⟩ => show win1_5.index t (0 : Fin 2) * 1 + 1 * (y 0).val = (y 0).val; rw [e0]; omega
  | ⟨1, _⟩ => show win1_5.index t (1 : Fin 2) * 768 + 1 * (y 1).val = (y 1).val; rw [e1]; omega

/-- What point `t` writes back to the new hidden array is block `t` of the whole-array function of the entry contents. -/
theorem flushed_hidden (c : Dev nD) (t : Fin cfg1.N) :
    (dat1 V c).flushed 6 t = ((cfg1.win 6).blk t).view.read (Elt Ideal)
      (hidden (V c main_arg0) (V c main_v19) (V c main_v22) (V c main_v24) (V c main_v25) (V c main_arg7)) := by
  show (cfg1.win 6).cut (grid1.coords t) ((dat1 V c).after 6 t) = _
  rw [after1_6]
  unfold out1_6
  rw [View.canon_unit_zero hz]
  simp only [View.ld_unit_zero (S := S1000x256) hz, View.ld_unit_zero (S := S256x768) hz, View.ld_unit_zero (S := S1x768) hz]
  have e0 := (idx_facts t).2.2.2.2.2.2.2.2.2.2.2.2.1
  have e1 := (idx_facts t).2.2.2.2.2.2.2.2.2.2.2.2.2.1
  funext y
  obtain ⟨p, q, rfl⟩ : ∃ (p : Fin 1000) (q : Fin 256), y = ix2 p q := ⟨y 0, y 1, eq_ix2 y⟩
  show k1_pay3 (F := Ideal) (iblk1 V c 0 t) (iblk1 V c 1 t) (iblk1 V c 2 t) (iblk1 V c 3 t) (iblk1 V c 4 t) (iblk1 V c 5 t) (ix2 p q) = _
  refine (block_hidden (V c main_arg0) (V c main_v19) (V c main_v22) (V c main_v24) (V c main_v25) (V c main_arg7)
    (iblk1 V c 0 t) (iblk1 V c 1 t) (iblk1 V c 2 t) (iblk1 V c 3 t) (iblk1 V c 4 t) (iblk1 V c 5 t) t.val (point_lt t)
    (input_rows V c t) (childsum_rows V c t) (childcell_rows V c t) (inweight_whole V c t) (childweight_whole V c t)
    (bias_whole V c t) p q).trans ?_
  rw [View.read_apply]
  unfold hidden
  refine congrArg₂ (hiddenAt (V c main_arg0) (V c main_v19) (V c main_v22) (V c main_v24) (V c main_v25) (V c main_arg7)) (Fin.ext ?_) (Fin.ext ?_)
  · show t.val * 1000 + p.val = win1_6.index t (0 : Fin 2) * 1000 + 1 * p.val; rw [e0]; omega
  · show q.val = win1_6.index t (1 : Fin 2) * 256 + 1 * q.val; rw [e1]; omega

/-- An index of that result array is in point `t`'s block iff each coordinate is in the block's range. -/
theorem mem_blk6 (t : Fin cfg1.N) (i : S200000x256.Idx) :
    i ∈ ((cfg1.win 6).blk t).view.set ↔ ∀ a : Fin 2, win1_6.index t a * S1000x256.size a ≤ (i a).val ∧ (i a).val < win1_6.index t a * S1000x256.size a + S1000x256.size a := by
  show i ∈ ((View.whole main_v26_0).slice (win1_6.rect t)).set ↔ _
  rw [View.set_slice_whole, Rect.mem_set_unit]
  exact Iff.rfl

/-- Every node row lies in the block of point `row / 1000`, and every point writes back. -/
theorem covered6 (i : S200000x256.Idx) :
    ∃ t : Fin cfg1.N, (cfg1.win 6).flush t = true ∧ i ∈ ((cfg1.win 6).blk t).view.set := by
  have hi0 : (i 0).val < 200000 := (i 0).isLt
  have hi1 : (i 1).val < 256 := (i 1).isLt
  obtain ⟨t, ht⟩ : ∃ t : Fin cfg1.N, t.val = (i 0).val / 1000 :=
    ⟨⟨(i 0).val / 1000, by rw [show cfg1.N = 200 from N_1]; omega⟩, rfl⟩
  have e0 := (idx_facts t).2.2.2.2.2.2.2.2.2.2.2.2.1
  have e1 := (idx_facts t).2.2.2.2.2.2.2.2.2.2.2.2.2.1
  refine ⟨t, flush1_6 t, ?_⟩
  rw [mem_blk6]
  intro a
  match a with
  | ⟨0, _⟩ => show win1_6.index t (0 : Fin 2) * 1000 ≤ (i 0).val ∧ (i 0).val < win1_6.index t (0 : Fin 2) * 1000 + 1000; rw [e0]; omega
  | ⟨1, _⟩ => show win1_6.index t (1 : Fin 2) * 256 ≤ (i 1).val ∧ (i 1).val < win1_6.index t (1 : Fin 2) * 256 + 256; rw [e1]; omega

/-- What point `t` writes back to the new cell array is block `t` of the whole-array function of the entry contents. -/
theorem flushed_cell (c : Dev nD) (t : Fin cfg1.N) :
    (dat1 V c).flushed 7 t = ((cfg1.win 7).blk t).view.read (Elt Ideal)
      (cell (V c main_arg0) (V c main_v19) (V c main_v22) (V c main_v24) (V c main_v25) (V c main_arg7)) := by
  show (cfg1.win 7).cut (grid1.coords t) ((dat1 V c).after 7 t) = _
  rw [after1_7]
  unfold out1_7
  rw [View.canon_unit_zero hz]
  simp only [View.ld_unit_zero (S := S1000x256) hz, View.ld_unit_zero (S := S256x768) hz, View.ld_unit_zero (S := S1x768) hz]
  have e0 := (idx_facts t).2.2.2.2.2.2.2.2.2.2.2.2.2.2.1
  have e1 := (idx_facts t).2.2.2.2.2.2.2.2.2.2.2.2.2.2.2
  funext y
  obtain ⟨p, q, rfl⟩ : ∃ (p : Fin 1000) (q : Fin 256), y = ix2 p q := ⟨y 0, y 1, eq_ix2 y⟩
  show k1_pay2 (F := Ideal) (iblk1 V c 0 t) (iblk1 V c 1 t) (iblk1 V c 2 t) (iblk1 V c 3 t) (iblk1 V c 4 t) (iblk1 V c 5 t) (ix2 p q) = _
  refine (block_cell (V c main_arg0) (V c main_v19) (V c main_v22) (V c main_v24) (V c main_v25) (V c main_arg7)
    (iblk1 V c 0 t) (iblk1 V c 1 t) (iblk1 V c 2 t) (iblk1 V c 3 t) (iblk1 V c 4 t) (iblk1 V c 5 t) t.val (point_lt t)
    (input_rows V c t) (childsum_rows V c t) (childcell_rows V c t) (inweight_whole V c t) (childweight_whole V c t)
    (bias_whole V c t) p q).trans ?_
  rw [View.read_apply]
  unfold cell
  refine congrArg₂ (cellAt (V c main_arg0) (V c main_v19) (V c main_v22) (V c main_v24) (V c main_v25) (V c main_arg7)) (Fin.ext ?_) (Fin.ext ?_)
  · show t.val * 1000 + p.val = win1_7.index t (0 : Fin 2) * 1000 + 1 * p.val; rw [e0]; omega
  · show q.val = win1_7.index t (1 : Fin 2) * 256 + 1 * q.val; rw [e1]; omega

/-- An index of that result array is in point `t`'s block iff each coordinate is in the block's range. -/
theorem mem_blk7 (t : Fin cfg1.N) (i : S200000x256.Idx) :
    i ∈ ((cfg1.win 7).blk t).view.set ↔ ∀ a : Fin 2, win1_7.index t a * S1000x256.size a ≤ (i a).val ∧ (i a).val < win1_7.index t a * S1000x256.size a + S1000x256.size a := by
  show i ∈ ((View.whole main_v26_1).slice (win1_7.rect t)).set ↔ _
  rw [View.set_slice_whole, Rect.mem_set_unit]
  exact Iff.rfl

/-- Every node row lies in the block of point `row / 1000`, and every point writes back. -/
theorem covered7 (i : S200000x256.Idx) :
    ∃ t : Fin cfg1.N, (cfg1.win 7).flush t = true ∧ i ∈ ((cfg1.win 7).blk t).view.set := by
  have hi0 : (i 0).val < 200000 := (i 0).isLt
  have hi1 : (i 1).val < 256 := (i 1).isLt
  obtain ⟨t, ht⟩ : ∃ t : Fin cfg1.N, t.val = (i 0).val / 1000 :=
    ⟨⟨(i 0).val / 1000, by rw [show cfg1.N = 200 from N_1]; omega⟩, rfl⟩
  have e0 := (idx_facts t).2.2.2.2.2.2.2.2.2.2.2.2.2.2.1
  have e1 := (idx_facts t).2.2.2.2.2.2.2.2.2.2.2.2.2.2.2
  refine ⟨t, flush1_7 t, ?_⟩
  rw [mem_blk7]
  intro a
  match a with
  | ⟨0, _⟩ => show win1_7.index t (0 : Fin 2) * 1000 ≤ (i 0).val ∧ (i 0).val < win1_7.index t (0 : Fin 2) * 1000 + 1000; rw [e0]; omega
  | ⟨1, _⟩ => show win1_7.index t (1 : Fin 2) * 256 ≤ (i 1).val ∧ (i 1).val < win1_7.index t (1 : Fin 2) * 256 + 256; rw [e1]; omega

/-- The new hidden array after the region. -/
theorem final_hidden (c : Dev nD) :
    (dat1 V c).arrAt 6 cfg1.N = hidden (V c main_arg0) (V c main_v19) (V c main_v22) (V c main_v24) (V c main_v25) (V c main_arg7) :=
  (dat1 V c).arrAt_eq_of_cover 6 _ (fun t _ => flushed_hidden V c t) (covered6)

/-- The new cell array after the region. -/
theorem final_cell (c : Dev nD) :
    (dat1 V c).arrAt 7 cfg1.N = cell (V c main_arg0) (V c main_v19) (V c main_v22) (V c main_v24) (V c main_v25) (V c main_arg7) :=
  (dat1 V c).arrAt_eq_of_cover 7 _ (fun t _ => flushed_cell V c t) (covered7)

end Region

end Cert.KernelIdeal.Node

end
-- ==== Proof.KernelValue.lean ====
/-
  The idealized kernel program's two results as closed forms over the launch memory.

  Before the per-edge region the host gathers the child rows `h[src]`, `c[src]`, transposes the forget weight and
  reshapes its bias to a row; the region writes the gated child cells.  Between the regions the host sums the
  gathered hidden rows and the gated cells per parent node (scatter-add by `dst` into zeros), keeps the first 768
  rows of the input weight and transposes both gate weights.  The per-node region then writes the new hidden and
  cell arrays.  Each array a region is entered with is read here from the fold of host operations; where a host
  stage is, operation for operation, the reference's own (its gathers, its child sum, its transposes, the zeros and
  the parent indices of the scatters) it is named by the reference's stage function.
-/
import proofs.«143361_j12644383719723_1_alg».proof.Proof.Gen.KernelIdeal.Frame
import proofs.«143361_j12644383719723_1_alg».proof.Proof.Gen.ReferenceIdeal.Read
import proofs.«143361_j12644383719723_1_alg».proof.Proof.EdgeArray
import proofs.«143361_j12644383719723_1_alg».proof.Proof.NodeArray
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen
open Cert.ReferenceIdeal.Read (val_main_v9 val_main_v16 val_main_v19 val_main_v20 val_main_v32 val_main_v33 val_main_v35)

/-- The input weight as the per-node region takes it: its first 768 rows, transposed to [256, 768]. -/
abbrev inWeightT (w : FVec Ideal S1024x256 .f32) : FVec Ideal S256x768 .f32 :=
  transpose S256x768 [1, 0] (extractStridedSlice S768x256 ![0, 0] w slices_S1024x256_S768x256_0_0) transposes_S768x256_S256x768_1_0

/-- The forget bias as the per-edge region takes it: one row [1, 256]. -/
abbrev biasRow (b : FVec Ideal S256 .f32) : FVec Ideal S1x256 .f32 := shapeCast S1x256 b shapeCasts_S256_S1x256

/-- The gated child cells of every edge: the per-edge region's result from the gathered rows. -/
def gatedCells (h c : FVec Ideal S200000x256 .f32) (src : IVec S200000 32) (uf : FVec Ideal S256x256 .f32)
    (ub : FVec Ideal S256 .f32) : FVec Ideal S200000x256 .f32 :=
  Edge.gated (val_main_v9 (F := Ideal) h src) (val_main_v16 (F := Ideal) c src) (val_main_v20 (F := Ideal) uf) (biasRow ub)

/-- Their sum per parent node: scatter-add by `dst` into zeros. -/
def childCellSum (h c : FVec Ideal S200000x256 .f32) (src dst : IVec S200000 32) (uf : FVec Ideal S256x256 .f32)
    (ub : FVec Ideal S256 .f32) : FVec Ideal S200000x256 .f32 :=
  Host.scatterAdd Cert.ReferenceIdeal.scatter_S200000x256_S200000x1_S200000x256_1_0_0_1 (val_main_v32 (F := Ideal)) (val_main_v33 (F := Ideal) dst)
    (gatedCells h c src uf ub)

variable (m : (ℓ : Loc nD τ sig) → Buf (Elt Ideal) ℓ) (ρ : Dev nD → PrngReg)

/-! ## The arrays the per-edge region is entered with -/

/-- The gathered child hidden rows. -/
theorem entry_child_hidden (c : Dev nD) :
    W1 m ρ c (Proc.devRef .tc main_v6) = val_main_v9 (F := Ideal) (m ((c.tc : Thread nD τ).loc main_arg1)) (m ((c.tc : Thread nD τ).loc main_arg3)) := by
  show StableHlo.after hostOps0 (W0 m ρ c) (Proc.devRef .tc main_v6) = _
  after_results
  rfl

/-- The gathered child cell rows. -/
theorem entry_child_cell (c : Dev nD) :
    W1 m ρ c (Proc.devRef .tc main_v13) = val_main_v16 (F := Ideal) (m ((c.tc : Thread nD τ).loc main_arg2)) (m ((c.tc : Thread nD τ).loc main_arg3)) := by
  show StableHlo.after hostOps0 (W0 m ρ c) (Proc.devRef .tc main_v13) = _
  after_results
  rfl

/-- The transposed forget weight. -/
theorem entry_forget_weight (c : Dev nD) :
    W1 m ρ c (Proc.devRef .tc main_v14) = val_main_v20 (F := Ideal) (m ((c.tc : Thread nD τ).loc main_arg8)) := by
  show StableHlo.after hostOps0 (W0 m ρ c) (Proc.devRef .tc main_v14) = _
  after_results
  rfl

/-- The forget bias as a row. -/
theorem entry_forget_bias (c : Dev nD) :
    W1 m ρ c (Proc.devRef .tc main_v15) = biasRow (m ((c.tc : Thread nD τ).loc main_arg9)) := by
  show StableHlo.after hostOps0 (W0 m ρ c) (Proc.devRef .tc main_v15) = _
  after_results
  rfl

/-- An argument the first stretch of host operations does not write is still the launch memory after it. -/
theorem kept_dst (c : Dev nD) : W1 m ρ c (Proc.devRef .tc main_arg4) = (m ((c.tc : Thread nD τ).loc main_arg4)) := by
  show StableHlo.after hostOps0 (W0 m ρ c) (Proc.devRef .tc main_arg4) = _
  after_results
theorem kept_in_weight (c : Dev nD) : W1 m ρ c (Proc.devRef .tc main_arg5) = (m ((c.tc : Thread nD τ).loc main_arg5)) := by
  show StableHlo.after hostOps0 (W0 m ρ c) (Proc.devRef .tc main_arg5) = _
  after_results
theorem kept_child_weight (c : Dev nD) : W1 m ρ c (Proc.devRef .tc main_arg6) = (m ((c.tc : Thread nD τ).loc main_arg6)) := by
  show StableHlo.after hostOps0 (W0 m ρ c) (Proc.devRef .tc main_arg6) = _
  after_results

/-- The per-edge region leaves the gated child cells in its result array. -/
theorem gated_result (c : Dev nD) :
    W2 m ρ c (Proc.devRef .tc main_v16) = gatedCells (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) := by
  have h : W2 m ρ c (Proc.devRef .tc main_v16) = (dat0 (V1 m ρ) c).arrAt 4 cfg0.N := W2_arr m ρ c 4
  rw [h, Edge.final (V1 m ρ) c]
  show Edge.gated (W1 m ρ c (Proc.devRef .tc main_v6)) (W1 m ρ c (Proc.devRef .tc main_v13)) (W1 m ρ c (Proc.devRef .tc main_v14))
    (W1 m ρ c (Proc.devRef .tc main_v15)) = _
  rw [entry_child_hidden, entry_child_cell, entry_forget_weight, entry_forget_bias]
  rfl

/-! ## The arrays the per-node region is entered with -/

/-- The input rows: an argument, untouched so far. -/
theorem entry_input (c : Dev nD) : V3 m ρ c main_arg0 = (m ((c.tc : Thread nD τ).loc main_arg0)) :=
  ((W4_arr m ρ c 0).trans (((dat1 (V3 m ρ) c).arrAt_in 0 rfl _).trans (A_eq1 (V3 m ρ) c 0))).symm.trans (W4_main_arg0 m ρ c)

/-- The gate bias row: an argument, untouched so far. -/
theorem entry_gate_bias (c : Dev nD) : V3 m ρ c main_arg7 = (m ((c.tc : Thread nD τ).loc main_arg7)) :=
  ((W4_arr m ρ c 5).trans (((dat1 (V3 m ρ) c).arrAt_in 5 rfl _).trans (A_eq1 (V3 m ρ) c 5))).symm.trans (W4_main_arg7 m ρ c)

/-- The child hidden sum per parent node. -/
theorem entry_child_sum (c : Dev nD) :
    W3 m ρ c (Proc.devRef .tc main_v19) = val_main_v19 (F := Ideal) (m ((c.tc : Thread nD τ).loc main_arg1)) (m ((c.tc : Thread nD τ).loc main_arg3)) (m ((c.tc : Thread nD τ).loc main_arg4)) := by
  have h6 : W2 m ρ c (Proc.devRef .tc main_v6) = W1 m ρ c (Proc.devRef .tc main_v6) :=
    (W2_arr m ρ c 0).trans (((dat0 (V1 m ρ) c).arrAt_in 0 rfl _).trans (A_eq0 (V1 m ρ) c 0))
  show StableHlo.after hostOps1 (W2 m ρ c) (Proc.devRef .tc main_v19) = _
  after_results
  rw [W2_of_ne m ρ c main_arg4 (by decide), h6, kept_dst, entry_child_hidden]
  rfl

/-- The gated child cell sum per parent node. -/
theorem entry_cell_sum (c : Dev nD) :
    W3 m ρ c (Proc.devRef .tc main_v22) = childCellSum (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) := by
  show StableHlo.after hostOps1 (W2 m ρ c) (Proc.devRef .tc main_v22) = _
  after_results
  rw [W2_of_ne m ρ c main_arg4 (by decide), kept_dst, gated_result]
  rfl

/-- The input weight, sliced and transposed. -/
theorem entry_in_weight (c : Dev nD) :
    W3 m ρ c (Proc.devRef .tc main_v24) = inWeightT (m ((c.tc : Thread nD τ).loc main_arg5)) := by
  show StableHlo.after hostOps1 (W2 m ρ c) (Proc.devRef .tc main_v24) = _
  after_results
  rw [W2_of_ne m ρ c main_arg5 (by decide), kept_in_weight]

/-- The child weight, transposed. -/
theorem entry_child_weight (c : Dev nD) :
    W3 m ρ c (Proc.devRef .tc main_v25) = val_main_v35 (F := Ideal) (m ((c.tc : Thread nD τ).loc main_arg6)) := by
  show StableHlo.after hostOps1 (W2 m ρ c) (Proc.devRef .tc main_v25) = _
  after_results
  rw [W2_of_ne m ρ c main_arg6 (by decide), kept_child_weight]
  rfl

/-! ## The two results -/

/-- The new hidden array. -/
theorem result_hidden (c : Dev nD) :
    W4 m ρ c (Proc.devRef .tc main_v26_0)
      = Node.hidden (m ((c.tc : Thread nD τ).loc main_arg0)) (val_main_v19 (F := Ideal) (m ((c.tc : Thread nD τ).loc main_arg1)) (m ((c.tc : Thread nD τ).loc main_arg3)) (m ((c.tc : Thread nD τ).loc main_arg4)))
          (childCellSum (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)))
          (inWeightT (m ((c.tc : Thread nD τ).loc main_arg5))) (val_main_v35 (F := Ideal) (m ((c.tc : Thread nD τ).loc main_arg6))) (m ((c.tc : Thread nD τ).loc main_arg7)) := by
  have h : W4 m ρ c (Proc.devRef .tc main_v26_0) = (dat1 (V3 m ρ) c).arrAt 6 cfg1.N := W4_arr m ρ c 6
  rw [h, Node.final_hidden (V3 m ρ) c, entry_input, entry_gate_bias]
  show Node.hidden _ (W3 m ρ c (Proc.devRef .tc main_v19)) (W3 m ρ c (Proc.devRef .tc main_v22)) (W3 m ρ c (Proc.devRef .tc main_v24))
    (W3 m ρ c (Proc.devRef .tc main_v25)) _ = _
  rw [entry_child_sum, entry_cell_sum, entry_in_weight, entry_child_weight]

/-- The new cell array. -/
theorem result_cell (c : Dev nD) :
    W4 m ρ c (Proc.devRef .tc main_v26_1)
      = Node.cell (m ((c.tc : Thread nD τ).loc main_arg0)) (val_main_v19 (F := Ideal) (m ((c.tc : Thread nD τ).loc main_arg1)) (m ((c.tc : Thread nD τ).loc main_arg3)) (m ((c.tc : Thread nD τ).loc main_arg4)))
          (childCellSum (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)))
          (inWeightT (m ((c.tc : Thread nD τ).loc main_arg5))) (val_main_v35 (F := Ideal) (m ((c.tc : Thread nD τ).loc main_arg6))) (m ((c.tc : Thread nD τ).loc main_arg7)) := by
  have h : W4 m ρ c (Proc.devRef .tc main_v26_1) = (dat1 (V3 m ρ) c).arrAt 7 cfg1.N := W4_arr m ρ c 7
  rw [h, Node.final_cell (V3 m ρ) c, entry_input, entry_gate_bias]
  show Node.cell _ (W3 m ρ c (Proc.devRef .tc main_v19)) (W3 m ρ c (Proc.devRef .tc main_v22)) (W3 m ρ c (Proc.devRef .tc main_v24))
    (W3 m ρ c (Proc.devRef .tc main_v25)) _ = _
  rw [entry_child_sum, entry_cell_sum, entry_in_weight, entry_child_weight]

end Cert.KernelIdeal.Whole

end
-- ==== Proof.ReferenceValue.lean ====
/-
  The reference's two results are the kernel's closed forms.

  Stage by stage the reference computes: the forget gate as 1 / (1 + exp(−z)) — which on the extended reals is the
  logistic function the kernel applies, at the infinities too —; the gated child cells with the forget bias broadcast
  from a vector where the kernel reads a reshaped row; the gate pre-activation with the input projected through all
  1024 weight rows and then cut to the first 768 columns, where the kernel cuts the weight to 768 rows first: entry
  (n, q) is the same sum ∑ k, x(n, k) · W(q, k) either way; and the same scatter-adds, tanh and products.  So each
  result array is, index by index, the kernel's function of the arguments.
-/
import proofs.«143361_j12644383719723_1_alg».proof.Proof.Gen.ReferenceIdeal.Read
import proofs.«143361_j12644383719723_1_alg».proof.Proof.KernelValue
import Idealize.ShloMosaic.PureOps.IdealRules

set_option maxRecDepth 16384

noncomputable section

namespace Cert.ReferenceIdeal.RefValue

open Idealize.ShloMosaic Idealize.ShloMosaic.ValueIdx
open Cert.ReferenceIdeal Cert.ReferenceIdeal.Gen Cert.ReferenceIdeal.Read
open Cert.KernelIdeal.Whole (gatedCells childCellSum inWeightT biasRow)
open Cert.KernelIdeal.Node (preAt cellAt hiddenAt gateCol)

/-- The word 0x3F800000 denotes one. -/
theorem one_f32 : FloatOps.ofBits (F := Ideal) .f32 0x3F800000#32 = (1 : EReal) :=
  IdealRules.sign_bit.ideal_onePat .f32

/-- The host's expanded sigmoid 1 / (1 + exp(−z)) is the logistic function, on every extended real. -/
theorem host_sigmoid (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  rw [one_f32]; rfl

/-- The forget bias broadcast from the vector is the reshaped row's entry. -/
theorem bias_entry (x9 : FVec Ideal S256 .f32) (e : Fin 200000) (q : Fin 256) :
    x9 (idx_main_v22 (idx_main_v23 (ix2 e q))) = biasRow x9 (ix2 (0 : Fin 1) q) := by
  refine Eq.symm (shapeCast_apply x9 _ (ix2 (0 : Fin 1) q) _ ?_)
  rw [Shape.rowMajor_val_one, Shape.rowMajor_val_two]
  show q.val = 0 * 256 + q.val
  omega

/-- The reference's gated child cells are the per-edge region's result. -/
theorem gated_eq (x1 x2 : FVec Ideal S200000x256 .f32) (x3 : IVec S200000 32) (x8 : FVec Ideal S256x256 .f32)
    (x9 : FVec Ideal S256 .f32) :
    val_main_v31 (F := Ideal) x1 x2 x3 x8 x9 = gatedCells x1 x2 x3 x8 x9 := by
  funext i
  obtain ⟨e, q, rfl⟩ : ∃ (e : Fin 200000) (q : Fin 256), i = ix2 e q := ⟨i 0, i 1, eq_ix2 i⟩
  rw [val_main_v31_apply, val_main_v30_apply, val_main_v29_apply, val_main_cst_4_apply, val_main_v28_apply, val_main_v27_apply,
    val_main_cst_3_apply, val_main_v26_apply, val_main_v25_apply, val_main_v24_apply, val_main_v21_apply, val_main_v23_apply,
    val_main_v22_apply, host_sigmoid, bias_entry x9 e q]
  have hl : ∀ k : Fin 256, lidx_main_v21 (ix2 e q) k = ix2 e k := fun k =>
    funext fun a => Fin.ext (by match a with | ⟨0, _⟩ => rfl | ⟨1, _⟩ => rfl)
  have hr : ∀ k : Fin 256, ridx_main_v21 (ix2 e q) k = ix2 k q := fun k =>
    funext fun a => Fin.ext (by match a with | ⟨0, _⟩ => rfl | ⟨1, _⟩ => rfl)
  simp only [hl, hr]
  rfl

/-- So the gated child cell sums agree as well. -/
theorem cell_sum_eq (x1 x2 : FVec Ideal S200000x256 .f32) (x3 x4 : IVec S200000 32) (x8 : FVec Ideal S256x256 .f32)
    (x9 : FVec Ideal S256 .f32) :
    val_main_v34 (F := Ideal) x1 x2 x3 x4 x8 x9 = childCellSum x1 x2 x3 x4 x8 x9 := by
  unfold val_main_v34 childCellSum
  rw [gated_eq]

/-- Row q of the input weight's first 768 rows, read through the kernel's slice and transpose. -/
theorem in_weight_entry (x5 : FVec Ideal S1024x256 .f32) (n : Fin 200000) (q : Fin 768) (k : Fin 256) :
    val_main_v0 (F := Ideal) x5 (ridx_main_v1 (idx_main_v2 (ix2 n q)) k) = inWeightT x5 (ix2 k q) := by
  have hq : q.val < 1024 := by have := q.isLt; omega
  rw [val_main_v0_apply]
  have hk : inWeightT x5 (ix2 k q) = x5 (ix2 (⟨q.val, hq⟩ : Fin 1024) k) :=
    (transpose_apply [1, 0] _ _ (ix2 k q) (ix2 q k) (fun b => match b with
      | ⟨0, _⟩ => rfl
      | ⟨1, _⟩ => rfl)).trans
    (extractStridedSlice_apply ![0, 0] x5 _ (ix2 q k) (ix2 (⟨q.val, hq⟩ : Fin 1024) k)
      (fun a => match a with
        | ⟨0, _⟩ => by show q.val = 0 + q.val; omega
        | ⟨1, _⟩ => by show k.val = 0 + k.val; omega))
  rw [hk]
  exact congrArg x5 (funext fun a => Fin.ext (by match a with | ⟨0, _⟩ => rfl | ⟨1, _⟩ => rfl))

/-- The reference's gate pre-activation is the per-node region's, entry by entry. -/
theorem pre_eq (x0 x1 : FVec Ideal S200000x256 .f32) (x3 x4 : IVec S200000 32) (x5 : FVec Ideal S1024x256 .f32)
    (x6 : FVec Ideal S768x256 .f32) (x7 : FVec Ideal S1x768 .f32) (n : Fin 200000) (q : Fin 768) :
    val_main_v39 (F := Ideal) x0 x1 x3 x4 x5 x6 x7 (ix2 n q)
      = preAt x0 (val_main_v19 (F := Ideal) x1 x3 x4) (inWeightT x5) (val_main_v35 (F := Ideal) x6) x7 n q := by
  rw [val_main_v39_apply, val_main_v37_apply, val_main_v2_apply, val_main_v1_apply, val_main_v36_apply, val_main_v38_apply]
  have hl1 : ∀ k : Fin 256, lidx_main_v1 (idx_main_v2 (ix2 n q)) k = ix2 n k := fun k =>
    funext fun a => Fin.ext (by match a with | ⟨0, _⟩ => rfl | ⟨1, _⟩ => rfl)
  have hl : ∀ k : Fin 256, lidx_main_v36 (ix2 n q) k = ix2 n k := fun k =>
    funext fun a => Fin.ext (by match a with | ⟨0, _⟩ => rfl | ⟨1, _⟩ => rfl)
  have hr : ∀ k : Fin 256, ridx_main_v36 (ix2 n q) k = ix2 k q := fun k =>
    funext fun a => Fin.ext (by match a with | ⟨0, _⟩ => rfl | ⟨1, _⟩ => rfl)
  have hb : idx_main_v38 (ix2 n q) = ix2 (0 : Fin 1) q :=
    funext fun a => Fin.ext (by match a with | ⟨0, _⟩ => rfl | ⟨1, _⟩ => rfl)
  simp only [hl1, hl, hr, hb, in_weight_entry]
  rfl

/-- The three gate slices read the pre-activation at columns j, 256 + j and 512 + j. -/
theorem col_in (n : Fin 200000) (j : Fin 256) : idx_main_v40 (ix2 n j) = ix2 n (gateCol 0 (by decide) j) :=
  funext fun a => Fin.ext (by match a with | ⟨0, _⟩ => rfl | ⟨1, _⟩ => (show j.val = 0 + j.val; omega))
theorem col_out (n : Fin 200000) (j : Fin 256) : idx_main_v41 (ix2 n j) = ix2 n (gateCol 256 (by decide) j) :=
  funext fun a => Fin.ext (by match a with | ⟨0, _⟩ => rfl | ⟨1, _⟩ => rfl)
theorem col_cand (n : Fin 200000) (j : Fin 256) : idx_main_v42 (ix2 n j) = ix2 n (gateCol 512 (by decide) j) :=
  funext fun a => Fin.ext (by match a with | ⟨0, _⟩ => rfl | ⟨1, _⟩ => rfl)

/-- The reference's new cell array is the kernel's closed form. -/
theorem cell_eq (x0 x1 x2 : FVec Ideal S200000x256 .f32) (x3 x4 : IVec S200000 32) (x5 : FVec Ideal S1024x256 .f32)
    (x6 : FVec Ideal S768x256 .f32) (x7 : FVec Ideal S1x768 .f32) (x8 : FVec Ideal S256x256 .f32) (x9 : FVec Ideal S256 .f32) :
    val_main_v51 (F := Ideal) x0 x1 x2 x3 x4 x5 x6 x7 x8 x9
      = Cert.KernelIdeal.Node.cell x0 (val_main_v19 (F := Ideal) x1 x3 x4) (childCellSum x1 x2 x3 x4 x8 x9) (inWeightT x5)
          (val_main_v35 (F := Ideal) x6) x7 := by
  funext i
  obtain ⟨n, j, rfl⟩ : ∃ (n : Fin 200000) (j : Fin 256), i = ix2 n j := ⟨i 0, i 1, eq_ix2 i⟩
  rw [val_main_v51_apply, val_main_v50_apply, val_main_v48_apply, val_main_v47_apply, val_main_cst_7_apply, val_main_v46_apply,
    val_main_v45_apply, val_main_cst_6_apply, val_main_v44_apply, val_main_v43_apply, val_main_v40_apply, val_main_v49_apply,
    val_main_v42_apply, host_sigmoid, col_in, col_cand, pre_eq, pre_eq, cell_sum_eq]
  rfl

/-- The reference's new hidden array is the kernel's closed form. -/
theorem hidden_eq (x0 x1 x2 : FVec Ideal S200000x256 .f32) (x3 x4 : IVec S200000 32) (x5 : FVec Ideal S1024x256 .f32)
    (x6 : FVec Ideal S768x256 .f32) (x7 : FVec Ideal S1x768 .f32) (x8 : FVec Ideal S256x256 .f32) (x9 : FVec Ideal S256 .f32) :
    val_main_v59 (F := Ideal) x0 x1 x2 x3 x4 x5 x6 x7 x8 x9
      = Cert.KernelIdeal.Node.hidden x0 (val_main_v19 (F := Ideal) x1 x3 x4) (childCellSum x1 x2 x3 x4 x8 x9) (inWeightT x5)
          (val_main_v35 (F := Ideal) x6) x7 := by
  funext i
  obtain ⟨n, j, rfl⟩ : ∃ (n : Fin 200000) (j : Fin 256), i = ix2 n j := ⟨i 0, i 1, eq_ix2 i⟩
  rw [val_main_v59_apply, val_main_v57_apply, val_main_v56_apply, val_main_cst_9_apply, val_main_v55_apply, val_main_v54_apply,
    val_main_cst_8_apply, val_main_v53_apply, val_main_v52_apply, val_main_v41_apply, val_main_v58_apply, host_sigmoid, col_out,
    pre_eq, cell_eq]
  rfl

end Cert.ReferenceIdeal.RefValue

end
-- ==== Proof.lean ====
/-
  Child-sum tree LSTM step: the kernel program against its reference, over the extended reals.

  Both programs gather the child states along the edges, h[src] and c[src]; form per edge the forget gate
  sigmoid(h[src] · U_fᵀ + b_f) and the gated child cell f · c[src]; sum the gathered hidden rows and the gated cells per
  parent node (scatter-add by dst); and form per node
      pre   = x · W[:768]ᵀ + hsum · U_iouᵀ + b_iou,
      c_new = sigmoid(pre[:, 0:256]) · tanh(pre[:, 512:768]) + cagg,
      h_new = sigmoid(pre[:, 256:512]) · tanh(c_new).
  The kernel program does the per-edge and the per-node stage in two blocked regions (2000 edges, 1000 nodes per grid
  point) around the same host gathers and scatter-adds; the reference does everything on the host.  At the ideal
  instance the two differ only in spelling: the kernel's `logistic` against 1 / (1 + exp(−z)), which is one function on
  every extended real; a product into a zero accumulator against a plain contraction; the input weight cut to 768
  rows before, instead of 768 columns after, the product; a reshaped bias row against a broadcast one; the order of
  the sums and products is the same.  No law is used that needs finite operands, so the precondition is never opened.

  The three frames are the generated ones (the reference's is its generated run with the results dropped).  The
  idealization rewrote nothing, so `preserves` is `True`.  For the value claim the kernel's run is read with both
  result arrays named (KernelRun, KernelValue over EdgeArray / NodeArray / the payload lemmas) and the reference's
  generated run is rewritten to the same closed forms (ReferenceValue).
-/
import proofs.«143361_j12644383719723_1_alg».proof.Defs
import proofs.«143361_j12644383719723_1_alg».proof.Proof.Gen.Kernel
import proofs.«143361_j12644383719723_1_alg».proof.Proof.Gen.Kernel.Skeleton
import proofs.«143361_j12644383719723_1_alg».proof.Proof.Gen.Kernel.Launch
import proofs.«143361_j12644383719723_1_alg».proof.Proof.Gen.Kernel.Points
import proofs.«143361_j12644383719723_1_alg».proof.Proof.Gen.Kernel.Frame
import proofs.«143361_j12644383719723_1_alg».proof.Proof.Gen.KernelIdeal
import proofs.«143361_j12644383719723_1_alg».proof.Proof.Gen.KernelIdeal.Skeleton
import proofs.«143361_j12644383719723_1_alg».proof.Proof.Gen.KernelIdeal.Launch
import proofs.«143361_j12644383719723_1_alg».proof.Proof.Gen.KernelIdeal.Points
import proofs.«143361_j12644383719723_1_alg».proof.Proof.Gen.KernelIdeal.Frame
import proofs.«143361_j12644383719723_1_alg».proof.Proof.Gen.ReferenceIdeal
import proofs.«143361_j12644383719723_1_alg».proof.Proof.Gen.ReferenceIdeal.Run
import proofs.«143361_j12644383719723_1_alg».proof.Proof.Gen.ReferenceIdeal.Read
import proofs.«143361_j12644383719723_1_alg».proof.Proof.Gen.Pre_finite_inputs
import proofs.«143361_j12644383719723_1_alg».proof.Proof.KernelRun
import proofs.«143361_j12644383719723_1_alg».proof.Proof.KernelValue
import proofs.«143361_j12644383719723_1_alg».proof.Proof.ReferenceValue
import Idealize.ShloMosaic.Adequacy
import Idealize.ShloMosaic.Init

set_option maxRecDepth 16384

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments alone: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the new hidden and the new cell arrays at one function of the arguments. -/
theorem algebraic : Cert.algebraic_KernelIdeal_ReferenceIdeal := by
  intro m ρ m' ρ' _ hagree
  refine ⟨fun c => Cert.KernelIdeal.Node.hidden (m ((c.tc : Thread Cert.KernelIdeal.nD Cert.KernelIdeal.τ).loc Cert.KernelIdeal.main_arg0))
      (Cert.ReferenceIdeal.Read.val_main_v19 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (Cert.KernelIdeal.Whole.childCellSum (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (Cert.KernelIdeal.Whole.inWeightT (m ((c.tc : Thread Cert.KernelIdeal.nD Cert.KernelIdeal.τ).loc Cert.KernelIdeal.main_arg5))) (Cert.ReferenceIdeal.Read.val_main_v35 (F := Ideal) (m ((c.tc : Thread Cert.KernelIdeal.nD Cert.KernelIdeal.τ).loc Cert.KernelIdeal.main_arg6))) (m ((c.tc : Thread Cert.KernelIdeal.nD Cert.KernelIdeal.τ).loc Cert.KernelIdeal.main_arg7)),
    fun c => Cert.KernelIdeal.Node.cell (m ((c.tc : Thread Cert.KernelIdeal.nD Cert.KernelIdeal.τ).loc Cert.KernelIdeal.main_arg0))
      (Cert.ReferenceIdeal.Read.val_main_v19 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (Cert.KernelIdeal.Whole.childCellSum (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (Cert.KernelIdeal.Whole.inWeightT (m ((c.tc : Thread Cert.KernelIdeal.nD Cert.KernelIdeal.τ).loc Cert.KernelIdeal.main_arg5))) (Cert.ReferenceIdeal.Read.val_main_v35 (F := Ideal) (m ((c.tc : Thread Cert.KernelIdeal.nD Cert.KernelIdeal.τ).loc Cert.KernelIdeal.main_arg6))) (m ((c.tc : Thread Cert.KernelIdeal.nD Cert.KernelIdeal.τ).loc Cert.KernelIdeal.main_arg7)),
    ?_, ?_⟩
  · exact (θ_run Cert.KernelIdeal.defs _ _).mono (fun r h c =>
      ⟨(h c).1.trans (Cert.KernelIdeal.Whole.result_hidden m ρ c),
       (h c).2.1.trans (Cert.KernelIdeal.Whole.result_cell m ρ c), (h c).2.2⟩)
      (Cert.KernelIdeal.Whole.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9⟩ := hagree c
      rw [Cert.ReferenceIdeal.Read.val_main_v59_eq, Cert.ReferenceIdeal.RefValue.hidden_eq, a0, a1, a2, a3, a4, a5, a6, a7, a8, a9]
    · obtain ⟨a0, a1, a2, a3, a4, a5, a6, a7, a8, a9⟩ := hagree c
      rw [Cert.ReferenceIdeal.Read.val_main_v51_eq, Cert.ReferenceIdeal.RefValue.cell_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
